-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S1x8192 : Shape := ⟨2, ![1, 8192]⟩
abbrev S8192x1 : Shape := ⟨2, ![8192, 1]⟩
abbrev S_ : Shape := ⟨0, ![]⟩
abbrev S128x1 : Shape := ⟨2, ![128, 1]⟩
abbrev S128 : Shape := ⟨1, ![128]⟩
abbrev S128x128 : Shape := ⟨2, ![128, 128]⟩
abbrev S128x8192 : Shape := ⟨2, ![128, 8192]⟩

abbrev nBuf : Space → Nat
  | .hbm => 23
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S1x8192, .i32⟩
  | .hbm, ⟨3, _⟩ => ⟨S8192x1, .i32⟩
  | .hbm, ⟨4, _⟩ => ⟨S8192x128, .bf16⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S1x8192, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .i1⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S8192x128, .bf16⟩
  | .local _ .vmem, ⟨1, _⟩ => ⟨S1x8192, .f32⟩
  | .local _ .vmem, ⟨2, _⟩ => ⟨S1x8192, .i32⟩
  | .local _ .vmem, ⟨3, _⟩ => ⟨S128x1, .i32⟩
  | .local _ .vmem, ⟨4, _⟩ => ⟨S128x1, .i32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_call0_v0 : Ref sig .tc := ⟨.hbm, 21, rfl⟩
abbrev main_v12 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v4 : Index := Scalar.indexCast v1
  let c0_1 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S8192x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8192_S1x8192 : S8192.ShapeCasts S1x8192
  shapeCasts_S8192_S8192x1 : S8192.ShapeCasts S8192x1
  bitsLt_bf16_f32 : FTy.bits .bf16 < FTy.bits .f32
  reducesTo_S8192x128_S8192_d1 : S8192x128.ReducesTo [1] S8192
  h_S_ : 0 < S_.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  h_S128x128 : 0 < S128x128.numel
  shapeCasts_S128x128_S128x128 : S128x128.ShapeCasts S128x128
  reduces_S128x128_S128 : S128x128.Reduces [1] S128
  shapeCasts_S128_S128x1 : S128.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S128x8192_d1_w32 : S128x8192.Iotas .tc 32 [1]
  iota_S128x1_d0_w32 : S128x1.Iotas .tc 32 [0]
  reduces_S128x8192_S128 : S128x8192.Reduces [1] S128
  shapeCasts_S128x1_S128 : S128x1.ShapeCasts S128
  inb_S128_S128_0 : ∀ a, (![0] : Fin 1 → Nat) a + S128.size a ≤ S128.size a
  h_S128 : 0 < S128.numel
  natLt_1_32 : 1 < 32
  reducesTo_S8192_S_d0 : S8192.ReducesTo [0] S_
  dot_S128x128_S8192x128_S128x8192_1_1_0_0_n_n_wf : DotDims.WF S128x128 S8192x128 S128x8192 [1] [1] [0] [0] [] []
  hrank0 : 0 < grid0.rank
  k0_mult1_dvd : ∀ i : grid0.Coords, 128 ∣ (k0_mult1 i).toNat
  k0_off1_inb : ∀ i : grid0.Coords, ∀ a, (k0_off1 i) a + S128x128.size a ≤ S8192x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .bf16 = 32 ∨ (Rect.block (s := S8192x128) S8192x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .i32 = 32 ∨ (Rect.block (s := S1x8192) S1x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S8192x1.size a
  hwx0_3 : ∀ i : grid0.Coords, EltTy.bits .i32 = 32 ∨ (Rect.block (s := S8192x1) S128x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S8192.size a
  hwx0_4 : ∀ i : grid0.Coords, EltTy.bits .f32 = 32 ∨ (Rect.block (s := S8192) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S8192.size a
  hwx0_5 : ∀ i : grid0.Coords, EltTy.bits .f32 = 32 ∨ (Rect.block (s := S8192) S128.size (cc0_transform_5 i) (hinb0_5 i)).WholeWords (EltTy.packing .f32)

variable [Facts₀]

def dot_S128x128_S8192x128_S128x8192_1_1_0_0_n_n : DotDims S128x128 S8192x128 S128x8192 where
  lhsContracting := [1]
  rhsContracting := [1]
  lhsNonContracting := [0]
  rhsNonContracting := [0]
  lhsBatch := []
  rhsBatch := []
  wf := dot_S128x128_S8192x128_S128x8192_1_1_0_0_n_n_wf

abbrev win0_0 : Pipeline.Window sig grid0 :=
  Pipeline.Window.ofSpec (Memref.whole main_v2) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 89
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .i1⟩
  | .hbm, ⟨29, _⟩ => ⟨S8192x8192, .f32⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S8192x8192, .i32⟩
  | .hbm, ⟨40, _⟩ => ⟨S8192x8192, .i32⟩
  | .hbm, ⟨41, _⟩ => ⟨S_, .i32⟩
  | .hbm, ⟨42, _⟩ => ⟨S8192x8192, .i32⟩
  | .hbm, ⟨43, _⟩ => ⟨S8192x8192, .i32⟩
  | .hbm, ⟨44, _⟩ => ⟨S8192x8192, .i1⟩
  | .hbm, ⟨45, _⟩ => ⟨S8192x8192, .i1⟩
  | .hbm, ⟨46, _⟩ => ⟨S8192x8192, .i1⟩
  | .hbm, ⟨47, _⟩ => ⟨S8192x8192, .i1⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192, .f32⟩
  | .hbm, ⟨59, _⟩ => ⟨S_, .i1⟩
  | .hbm, ⟨60, _⟩ => ⟨S8192, .i1⟩
  | .hbm, ⟨61, _⟩ => ⟨S_, .i1⟩
  | .hbm, ⟨62, _⟩ => ⟨S8192, .i1⟩
  | .hbm, ⟨63, _⟩ => ⟨S8192, .i1⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S_, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i1⟩
  | .hbm, ⟨80, _⟩ => ⟨S_, .f32⟩
  | .hbm, ⟨81, _⟩ => ⟨S_, .f32⟩
  | .hbm, ⟨82, _⟩ => ⟨S_, .i32⟩
  | .hbm, ⟨83, _⟩ => ⟨S_, .i32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_call2_v0 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_cst_8 : Ref sig .tc := ⟨.hbm, 54, rfl⟩
abbrev main_call3_v0 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_c_10 : Ref sig .tc := ⟨.hbm, 59, rfl⟩
abbrev main_v39 : Ref sig .tc := ⟨.hbm, 60, rfl⟩
abbrev main_c_11 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_v44 : Ref sig .tc := ⟨.hbm, 67, rfl⟩
abbrev main_call4_cst : Ref sig .tc := ⟨.hbm, 68, rfl⟩
abbrev main_call4_v0 : Ref sig .tc := ⟨.hbm, 69, rfl⟩
abbrev main_v45 : Ref sig .tc := ⟨.hbm, 70, rfl⟩
abbrev main_cst_13 : Ref sig .tc := ⟨.hbm, 71, rfl⟩
abbrev main_call5_v0 : Ref sig .tc := ⟨.hbm, 72, rfl⟩
abbrev main_call5_v1 : Ref sig .tc := ⟨.hbm, 73, rfl⟩
abbrev main_v46 : Ref sig .tc := ⟨.hbm, 74, rfl⟩
abbrev main_v47 : Ref sig .tc := ⟨.hbm, 75, rfl⟩
abbrev main_c_14 : Ref sig .tc := ⟨.hbm, 76, rfl⟩
abbrev main_v48 : Ref sig .tc := ⟨.hbm, 77, rfl⟩
abbrev main_c_15 : Ref sig .tc := ⟨.hbm, 78, rfl⟩
abbrev main_v49 : Ref sig .tc := ⟨.hbm, 79, rfl⟩
abbrev main_cst_16 : Ref sig .tc := ⟨.hbm, 80, rfl⟩
abbrev main_v50 : Ref sig .tc := ⟨.hbm, 81, rfl⟩
abbrev main_c_17 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_18 : Ref sig .tc := ⟨.hbm, 86, rfl⟩
abbrev main_call6_v0 : Ref sig .tc := ⟨.hbm, 87, rfl⟩
abbrev main_v54 : Ref sig .tc := ⟨.hbm, 88, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  natLt_1_32 : 1 < 32
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.RefStages.lean ====
/-
  The reference program's run, read in seven stretches.

  Its 87 host operations compute, in order: the clamped squared distances (the first stretch, ending in %13), the
  distances (%20), the positive and negative masks (%32, %33), each row's hardest positive, hardest negative, validity and
  hinge argument (%41, %44), the selected hinge (%46), the count of valid rows, its sign and the sum of the losses (%48, %49, %50), and the mean over the valid rows (%54). Every stretch reads only a few of the buffers
  written before it, so its effect is stated for ANY contents found at its start, as a function of those few buffers;
  the statements compose along the program into the last buffer's value as a function of the two arguments.
  The arguments themselves are written by no operation.
-/
import proofs.«132673_j7172595384725_2_alg».proof.Proof.RefRead

noncomputable section

namespace Cert.ReferenceIdeal.RefStages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Running two stretches one after the other is running their concatenation. -/
theorem after_append {τ : Topo} {sig : RefSig} {Val : EltTy → Type} (A B : List (HloOp τ sig Val)) (V : Valuation τ sig Val) :
    after (A ++ B) V = after B (after A V) := by
  induction A generalizing V with
  | nil => rfl
  | cons op A ih => rw [List.cons_append, after_cons, after_cons, ih]

/-- The squared distances: operations 1–17. -/
abbrev opsA : List (HloOp τ sig (Elt F)) :=
  [ binary main_arg0 main_arg0 main_v0 (mulf : (⟨S8192x128, .f32⟩ : BufTy).Contents (Elt F) → (⟨S8192x128, .f32⟩ : BufTy).Contents (Elt F) → (⟨S8192x128, .f32⟩ : BufTy).Contents (Elt F)),
    nullary main_cst (constant S_ .f32 0x00000000#32),
    binary main_v0 main_cst main_v1 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    unary main_v1 main_v3 (broadcastInDim S1x8192 ![1] bcast_S8192_S1x8192_1 : (⟨S8192, .f32⟩ : BufTy).Contents (Elt F) → (⟨S1x8192, .f32⟩ : BufTy).Contents (Elt F)),
    unary main_v2 main_v4 (broadcastInDim S8192x8192 ![0, 1] bcast_S8192x1_S8192x8192_0_1 : (⟨S8192x1, .f32⟩ : BufTy).Contents (Elt F) → (⟨S8192x8192, .f32⟩ : BufTy).Contents (Elt F)),
    unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    unary main_arg0 main_v7 ((transpose S128x8192 [1, 0] · transposes_S8192x128_S128x8192_1_0) : (⟨S8192x128, .f32⟩ : BufTy).Contents (Elt F) → (⟨S128x8192, .f32⟩ : BufTy).Contents (Elt F)),
    binary main_arg0 main_v7 main_v8 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    nullary main_cst_0 (constant S_ .f32 0x40000000#32),
    unary main_cst_0 main_v9 (broadcastInDim S8192x8192 ![] bcast_S_S8192x8192 : (⟨S_, .f32⟩ : BufTy).Contents (Elt F) → (⟨S8192x8192, .f32⟩ : BufTy).Contents (Elt F)),
    binary main_v9 main_v8 main_v10 (mulf : (⟨S8192x8192, .f32⟩ : BufTy).Contents (Elt F) → (⟨S8192x8192, .f32⟩ : BufTy).Contents (Elt F) → (⟨S8192x8192, .f32⟩ : BufTy).Contents (Elt F)),
    binary main_v6 main_v10 main_v11 (subf : (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0x00000000#32),
    unary main_cst_1 main_v12 (broadcastInDim S8192x8192 ![] bcast_S_S8192x8192 : (⟨S_, .f32⟩ : BufTy).Contents (Elt F) → (⟨S8192x8192, .f32⟩ : BufTy).Contents (Elt F)),
    binary main_v11 main_v12 main_v13 (maximumf : (⟨S8192x8192, .f32⟩ : BufTy).Contents (Elt F) → (⟨S8192x8192, .f32⟩ : BufTy).Contents (Elt F) → (⟨S8192x8192, .f32⟩ : BufTy).Contents (Elt F)) ]

/-- The distances: operations 18–32. -/
abbrev opsB : List (HloOp τ sig (Elt F)) :=
  [ nullary main_cst_2 (constant S_ .f32 0x00000000#32),
    unary main_cst_2 main_v14 (broadcastInDim S8192x8192 ![] bcast_S_S8192x8192 : (⟨S_, .f32⟩ : BufTy).Contents (Elt F) → (⟨S8192x8192, .f32⟩ : BufTy).Contents (Elt F)),
    binary main_v13 main_v14 main_v15 (cmpf .ogt : (⟨S8192x8192, .f32⟩ : BufTy).Contents (Elt F) → (⟨S8192x8192, .f32⟩ : BufTy).Contents (Elt F) → (⟨S8192x8192, .i1⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.ternary (TRef.of (T := ⟨S8192x8192, .i1⟩) main_v15) (TRef.of (T := ⟨S8192x8192, .f32⟩) main_v13) (TRef.of (T := ⟨S8192x8192, .f32⟩) main_call0_v1) (TRef.of (T := ⟨S8192x8192, .f32⟩) main_v16) select,
    nullary main_cst_4 (constant S_ .f32 0x00000000#32),
    unary main_cst_4 main_v17 (broadcastInDim S8192x8192 ![] bcast_S_S8192x8192 : (⟨S_, .f32⟩ : BufTy).Contents (Elt F) → (⟨S8192x8192, .f32⟩ : BufTy).Contents (Elt F)),
    binary main_v13 main_v17 main_v18 (cmpf .ogt : (⟨S8192x8192, .f32⟩ : BufTy).Contents (Elt F) → (⟨S8192x8192, .f32⟩ : BufTy).Contents (Elt F) → (⟨S8192x8192, .i1⟩ : BufTy).Contents (Elt F)),
    unary main_v16 main_v19 (Host.sqrt : (⟨S8192x8192, .f32⟩ : BufTy).Contents (Elt F) → (⟨S8192x8192, .f32⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v18) (TRef.of (T := ⟨S8192x8192, .f32⟩) main_v19) (TRef.of (T := ⟨S8192x8192, .f32⟩) main_call1_v1) (TRef.of (T := ⟨S8192x8192, .f32⟩) main_v20) select ]

/-- The masks: operations 33–46. -/
abbrev opsC : List (HloOp τ sig (Elt F)) :=
  [ unary main_arg1 main_v21 (broadcastInDim S8192x1 ![0] bcast_S8192_S8192x1_0 : (⟨S8192, .i32⟩ : BufTy).Contents (Elt F) → (⟨S8192x1, .i32⟩ : BufTy).Contents (Elt F)),
    unary main_arg1 main_v22 (broadcastInDim S1x8192 ![1] bcast_S8192_S1x8192_1 : (⟨S8192, .i32⟩ : BufTy).Contents (Elt F) → (⟨S1x8192, .i32⟩ : BufTy).Contents (Elt F)),
    unary main_v21 main_v23 (broadcastInDim S8192x8192 ![0, 1] bcast_S8192x1_S8192x8192_0_1 : (⟨S8192x1, .i32⟩ : BufTy).Contents (Elt F) → (⟨S8192x8192, .i32⟩ : BufTy).Contents (Elt F)),
    unary main_v22 main_v24 (broadcastInDim S8192x8192 ![0, 1] bcast_S1x8192_S8192x8192_0_1 : (⟨S1x8192, .i32⟩ : BufTy).Contents (Elt F) → (⟨S8192x8192, .i32⟩ : BufTy).Contents (Elt F)),
    binary main_v23 main_v24 main_v25 (cmpi .eq : (⟨S8192x8192, .i32⟩ : BufTy).Contents (Elt F) → (⟨S8192x8192, .i32⟩ : BufTy).Contents (Elt F) → (⟨S8192x8192, .i1⟩ : BufTy).Contents (Elt F)),
    nullary main_v26 (iotaInDim S8192x8192 32 0),
    nullary main_v27 (iotaInDim S8192x8192 32 1),
    nullary main_c (constantI S_ 32 0#32),
    unary main_c main_v28 (broadcastInDim S8192x8192 ![] bcast_S_S8192x8192 : (⟨S_, .i32⟩ : BufTy).Contents (Elt F) → (⟨S8192x8192, .i32⟩ : BufTy).Contents (Elt F)),
    binary main_v26 main_v28 main_v29 (addi : (⟨S8192x8192, .i32⟩ : BufTy).Contents (Elt F) → (⟨S8192x8192, .i32⟩ : BufTy).Contents (Elt F) → (⟨S8192x8192, .i32⟩ : BufTy).Contents (Elt F)),
    binary main_v29 main_v27 main_v30 (cmpi .eq : (⟨S8192x8192, .i32⟩ : BufTy).Contents (Elt F) → (⟨S8192x8192, .i32⟩ : BufTy).Contents (Elt F) → (⟨S8192x8192, .i1⟩ : BufTy).Contents (Elt F)),
    unary main_v30 main_v31 (noti : (⟨S8192x8192, .i1⟩ : BufTy).Contents (Elt F) → (⟨S8192x8192, .i1⟩ : BufTy).Contents (Elt F)),
    binary main_v25 main_v31 main_v32 (andi : (⟨S8192x8192, .i1⟩ : BufTy).Contents (Elt F) → (⟨S8192x8192, .i1⟩ : BufTy).Contents (Elt F) → (⟨S8192x8192, .i1⟩ : BufTy).Contents (Elt F)),
    unary main_v25 main_v33 (noti : (⟨S8192x8192, .i1⟩ : BufTy).Contents (Elt F) → (⟨S8192x8192, .i1⟩ : BufTy).Contents (Elt F)) ]

/-- The rows' reductions: operations 47–66. -/
abbrev opsD : List (HloOp τ sig (Elt F)) :=
  [ nullary main_cst_6 (constant S_ .f32 0x7F800000#32),
    unary main_cst_6 main_v34 (Host.negf : (⟨S_, .f32⟩ : BufTy).Contents (Elt F) → (⟨S_, .f32⟩ : BufTy).Contents (Elt F)),
    TRef.unary (TRef.of (T := ⟨S_, .f32⟩) main_v34) (TRef.of (T := ⟨S8192x8192, .f32⟩) main_call2_v0) (broadcastInDim S8192x8192 ![] bcast_S_S8192x8192),
    TRef.ternary (TRef.of (T := ⟨S8192x8192, .i1⟩) main_v32) (TRef.of (T := ⟨S8192x8192, .f32⟩) main_v20) (TRef.of (T := ⟨S8192x8192, .f32⟩) main_call2_v0) (TRef.of (T := ⟨S8192x8192, .f32⟩) main_v35) select,
    nullary main_cst_7 (constant S_ .f32 0xFF800000#32),
    binary main_v35 main_cst_7 main_v36 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_8 (constant S_ .f32 0x7F800000#32),
    TRef.unary (TRef.of (T := ⟨S_, .f32⟩) main_cst_8) (TRef.of (T := ⟨S8192x8192, .f32⟩) main_call3_v0) (broadcastInDim S8192x8192 ![] bcast_S_S8192x8192),
    TRef.ternary (TRef.of (T := ⟨S8192x8192, .i1⟩) main_v33) (TRef.of (T := ⟨S8192x8192, .f32⟩) main_v20) (TRef.of (T := ⟨S8192x8192, .f32⟩) main_call3_v0) (TRef.of (T := ⟨S8192x8192, .f32⟩) main_v37) select,
    nullary main_cst_9 (constant S_ .f32 0x7F800000#32),
    binary main_v37 main_cst_9 main_v38 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_c_10 (constantI S_ 1 0#1),
    binary main_v32 main_c_10 main_v39 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    nullary main_c_11 (constantI S_ 1 0#1),
    binary main_v33 main_c_11 main_v40 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    binary main_v39 main_v40 main_v41 (andi : (⟨S8192, .i1⟩ : BufTy).Contents (Elt F) → (⟨S8192, .i1⟩ : BufTy).Contents (Elt F) → (⟨S8192, .i1⟩ : BufTy).Contents (Elt F)),
    binary main_v36 main_v38 main_v42 (subf : (⟨S8192, .f32⟩ : BufTy).Contents (Elt F) → (⟨S8192, .f32⟩ : BufTy).Contents (Elt F) → (⟨S8192, .f32⟩ : BufTy).Contents (Elt F)),
    nullary main_cst_12 (constant S_ .f32 0x3E99999A#32),
    unary main_cst_12 main_v43 (broadcastInDim S8192 ![] bcast_S_S8192 : (⟨S_, .f32⟩ : BufTy).Contents (Elt F) → (⟨S8192, .f32⟩ : BufTy).Contents (Elt F)),
    binary main_v42 main_v43 main_v44 (addf : (⟨S8192, .f32⟩ : BufTy).Contents (Elt F) → (⟨S8192, .f32⟩ : BufTy).Contents (Elt F) → (⟨S8192, .f32⟩ : BufTy).Contents (Elt F)) ]

/-- The hinge and the selection by validity: operations 67–73. -/
abbrev opsE1 : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S8192, .f32⟩) main_call4_v0) (broadcastInDim S8192 ![] bcast_S_S8192),
    TRef.binary (TRef.of (T := ⟨S8192, .f32⟩) main_v44) (TRef.of (T := ⟨S8192, .f32⟩) main_call4_v0) (TRef.of (T := ⟨S8192, .f32⟩) main_v45) maximumf,
    nullary main_cst_13 (constant S_ .f32 0x00000000#32),
    TRef.unary (TRef.of (T := ⟨S_, .f32⟩) main_cst_13) (TRef.of (T := ⟨S_, .f32⟩) main_call5_v0) id,
    TRef.unary (TRef.of (T := ⟨S_, .f32⟩) main_call5_v0) (TRef.of (T := ⟨S8192, .f32⟩) main_call5_v1) (broadcastInDim S8192 ![] bcast_S_S8192),
    TRef.ternary (TRef.of (T := ⟨S8192, .i1⟩) main_v41) (TRef.of (T := ⟨S8192, .f32⟩) main_v45) (TRef.of (T := ⟨S8192, .f32⟩) main_call5_v1) (TRef.of (T := ⟨S8192, .f32⟩) main_v46) select ]

/-- The count of valid rows, its sign, and the sum of the losses: operations 74–80. -/
abbrev opsE2 : List (HloOp τ sig (Elt F)) :=
  [ unary main_v41 main_v47 ((extui 32 · natLt_1_32) : (⟨S8192, .i1⟩ : BufTy).Contents (Elt F) → (⟨S8192, .i32⟩ : BufTy).Contents (Elt F)),
    nullary main_c_14 (constantI S_ 32 0#32),
    binary main_v47 main_c_14 main_v48 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)),
    nullary main_c_15 (constantI S_ 32 0#32),
    binary main_v48 main_c_15 main_v49 (cmpi .sgt : (⟨S_, .i32⟩ : BufTy).Contents (Elt F) → (⟨S_, .i32⟩ : BufTy).Contents (Elt F) → (⟨S_, .i1⟩ : BufTy).Contents (Elt F)),
    nullary main_cst_16 (constant S_ .f32 0x00000000#32),
    binary main_v46 main_cst_16 main_v50 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) ]

/-- The mean: operations 81–87. -/
abbrev opsE3 : List (HloOp τ sig (Elt F)) :=
  [ nullary main_c_17 (constantI S_ 32 1#32),
    binary main_v48 main_c_17 main_v51 (maxsi : (⟨S_, .i32⟩ : BufTy).Contents (Elt F) → (⟨S_, .i32⟩ : BufTy).Contents (Elt F) → (⟨S_, .i32⟩ : BufTy).Contents (Elt F)),
    unary main_v51 main_v52 (sitofp .f32 : (⟨S_, .i32⟩ : BufTy).Contents (Elt F) → (⟨S_, .f32⟩ : BufTy).Contents (Elt F)),
    binary main_v50 main_v52 main_v53 (Host.divf : (⟨S_, .f32⟩ : BufTy).Contents (Elt F) → (⟨S_, .f32⟩ : BufTy).Contents (Elt F) → (⟨S_, .f32⟩ : BufTy).Contents (Elt F)),
    nullary main_cst_18 (constant S_ .f32 0x00000000#32),
    TRef.unary (TRef.of (T := ⟨S_, .f32⟩) main_cst_18) (TRef.of (T := ⟨S_, .f32⟩) main_call6_v0) id,
    TRef.ternary (TRef.of (T := ⟨S_, .i1⟩) main_v49) (TRef.of (T := ⟨S_, .f32⟩) main_v53) (TRef.of (T := ⟨S_, .f32⟩) main_call6_v0) (TRef.of (T := ⟨S_, .f32⟩) main_v54) select ]

theorem ops_split : (ops : List (HloOp τ sig (Elt F))) = opsA ++ (opsB ++ (opsC ++ (opsD ++ (opsE1 ++ (opsE2 ++ opsE3))))) := rfl

variable (V : Valuation τ sig (Elt F))

/-! ## First stretch -/
theorem stageA : after opsA V (Proc.devRef .tc main_v13) = val_main_v13 (F := F) (V (Proc.devRef .tc main_arg0)) := by
  after_results_simp <;> rfl
theorem keepA0 : after opsA V (Proc.devRef .tc main_arg0) = V (Proc.devRef .tc main_arg0) := by after_results_simp
theorem keepA1 : after opsA V (Proc.devRef .tc main_arg1) = V (Proc.devRef .tc main_arg1) := by after_results_simp

/-! ## Second stretch -/
theorem stageB (x0 : (⟨S8192x128, .f32⟩ : BufTy).Contents (Elt F)) (h13 : V (Proc.devRef .tc main_v13) = val_main_v13 (F := F) x0) :
    after opsB V (Proc.devRef .tc main_v20) = val_main_v20 (F := F) x0 := by
  after_results_simp
  rw [h13]; rfl
theorem keepB0 : after opsB V (Proc.devRef .tc main_arg0) = V (Proc.devRef .tc main_arg0) := by after_results_simp
theorem keepB1 : after opsB V (Proc.devRef .tc main_arg1) = V (Proc.devRef .tc main_arg1) := by after_results_simp

/-! ## Third stretch -/
theorem stageC32 : after opsC V (Proc.devRef .tc main_v32) = val_main_v32 (F := F) (V (Proc.devRef .tc main_arg1)) := by
  after_results_simp <;> rfl
theorem stageC33 : after opsC V (Proc.devRef .tc main_v33) = val_main_v33 (F := F) (V (Proc.devRef .tc main_arg1)) := by
  after_results_simp <;> rfl
theorem keepC20 : after opsC V (Proc.devRef .tc main_v20) = V (Proc.devRef .tc main_v20) := by after_results_simp
theorem keepC0 : after opsC V (Proc.devRef .tc main_arg0) = V (Proc.devRef .tc main_arg0) := by after_results_simp
theorem keepC1 : after opsC V (Proc.devRef .tc main_arg1) = V (Proc.devRef .tc main_arg1) := by after_results_simp

/-! ## Fourth stretch -/
theorem stageD41 (x1 : (⟨S8192, .i32⟩ : BufTy).Contents (Elt F))
    (h32 : V (Proc.devRef .tc main_v32) = val_main_v32 (F := F) x1) (h33 : V (Proc.devRef .tc main_v33) = val_main_v33 (F := F) x1) :
    after opsD V (Proc.devRef .tc main_v41) = val_main_v41 (F := F) x1 := by
  after_results_simp
  rw [h32, h33]; rfl
theorem stageD44 (x0 : (⟨S8192x128, .f32⟩ : BufTy).Contents (Elt F)) (x1 : (⟨S8192, .i32⟩ : BufTy).Contents (Elt F))
    (h20 : V (Proc.devRef .tc main_v20) = val_main_v20 (F := F) x0)
    (h32 : V (Proc.devRef .tc main_v32) = val_main_v32 (F := F) x1) (h33 : V (Proc.devRef .tc main_v33) = val_main_v33 (F := F) x1) :
    after opsD V (Proc.devRef .tc main_v44) = val_main_v44 (F := F) x0 x1 := by
  after_results_simp
  rw [h20, h32, h33]; rfl
theorem keepD0 : after opsD V (Proc.devRef .tc main_arg0) = V (Proc.devRef .tc main_arg0) := by after_results_simp
theorem keepD1 : after opsD V (Proc.devRef .tc main_arg1) = V (Proc.devRef .tc main_arg1) := by after_results_simp

/-! ## Fifth to seventh stretch -/
theorem stageE1 (x0 : (⟨S8192x128, .f32⟩ : BufTy).Contents (Elt F)) (x1 : (⟨S8192, .i32⟩ : BufTy).Contents (Elt F))
    (h41 : V (Proc.devRef .tc main_v41) = val_main_v41 (F := F) x1) (h44 : V (Proc.devRef .tc main_v44) = val_main_v44 (F := F) x0 x1) :
    after opsE1 V (Proc.devRef .tc main_v46) = val_main_v46 (F := F) x0 x1 := by
  after_results_simp
  rw [h41, h44]; rfl
theorem keepE1_41 : after opsE1 V (Proc.devRef .tc main_v41) = V (Proc.devRef .tc main_v41) := by after_results_simp
theorem keepE10 : after opsE1 V (Proc.devRef .tc main_arg0) = V (Proc.devRef .tc main_arg0) := by after_results_simp
theorem keepE11 : after opsE1 V (Proc.devRef .tc main_arg1) = V (Proc.devRef .tc main_arg1) := by after_results_simp

theorem stageE2_48 (x1 : (⟨S8192, .i32⟩ : BufTy).Contents (Elt F))
    (h41 : V (Proc.devRef .tc main_v41) = val_main_v41 (F := F) x1) :
    after opsE2 V (Proc.devRef .tc main_v48) = val_main_v48 (F := F) x1 := by
  after_results_simp
  rw [h41]; rfl
theorem stageE2_49 (x1 : (⟨S8192, .i32⟩ : BufTy).Contents (Elt F))
    (h41 : V (Proc.devRef .tc main_v41) = val_main_v41 (F := F) x1) :
    after opsE2 V (Proc.devRef .tc main_v49) = val_main_v49 (F := F) x1 := by
  after_results_simp
  rw [h41]; rfl
theorem stageE2_50 (x0 : (⟨S8192x128, .f32⟩ : BufTy).Contents (Elt F)) (x1 : (⟨S8192, .i32⟩ : BufTy).Contents (Elt F))
    (h46 : V (Proc.devRef .tc main_v46) = val_main_v46 (F := F) x0 x1) :
    after opsE2 V (Proc.devRef .tc main_v50) = val_main_v50 (F := F) x0 x1 := by
  after_results_simp
  rw [h46]; rfl
theorem keepE20 : after opsE2 V (Proc.devRef .tc main_arg0) = V (Proc.devRef .tc main_arg0) := by after_results_simp
theorem keepE21 : after opsE2 V (Proc.devRef .tc main_arg1) = V (Proc.devRef .tc main_arg1) := by after_results_simp

/-! A value read or written through a typed reference to one of these scalar buffers is the value itself. -/
theorem tb54 (p1 p2 p3) (v : (⟨S_, .f32⟩ : BufTy).Contents (Elt F)) : (TRef.of (T := ⟨S_, .f32⟩) main_v54 p1 p2 p3).toBuf v = v := rfl
theorem ob49 (p1 p2 p3) (v : (⟨S_, .i1⟩ : BufTy).Contents (Elt F)) : (TRef.of (T := ⟨S_, .i1⟩) main_v49 p1 p2 p3).ofBuf v = v := rfl
theorem ob53 (p1 p2 p3) (v : (⟨S_, .f32⟩ : BufTy).Contents (Elt F)) : (TRef.of (T := ⟨S_, .f32⟩) main_v53 p1 p2 p3).ofBuf v = v := rfl
theorem obc6 (p1 p2 p3) (v : (⟨S_, .f32⟩ : BufTy).Contents (Elt F)) : (TRef.of (T := ⟨S_, .f32⟩) main_call6_v0 p1 p2 p3).ofBuf v = v := rfl
theorem tbc6 (p1 p2 p3) (v : (⟨S_, .f32⟩ : BufTy).Contents (Elt F)) : (TRef.of (T := ⟨S_, .f32⟩) main_call6_v0 p1 p2 p3).toBuf v = v := rfl
theorem ob18 (p1 p2 p3) (v : (⟨S_, .f32⟩ : BufTy).Contents (Elt F)) : (TRef.of (T := ⟨S_, .f32⟩) main_cst_18 p1 p2 p3).ofBuf v = v := rfl

theorem stageE3 (x0 : (⟨S8192x128, .f32⟩ : BufTy).Contents (Elt F)) (x1 : (⟨S8192, .i32⟩ : BufTy).Contents (Elt F))
    (h48 : V (Proc.devRef .tc main_v48) = val_main_v48 (F := F) x1) (h49 : V (Proc.devRef .tc main_v49) = val_main_v49 (F := F) x1)
    (h50 : V (Proc.devRef .tc main_v50) = val_main_v50 (F := F) x0 x1) :
    after opsE3 V (Proc.devRef .tc main_v54) = val_main_v54 (F := F) x0 x1 := by
  after_results_simp
  rw [h48, h49, h50]
  unfold val_main_v54 val_main_v53 val_main_v52 val_main_v51 val_main_c_17 val_main_call6_v0 val_main_cst_18
  rw [tb54, ob49, ob53, obc6, tbc6, ob18]
theorem keepE30 : after opsE3 V (Proc.devRef .tc main_arg0) = V (Proc.devRef .tc main_arg0) := by after_results_simp
theorem keepE31 : after opsE3 V (Proc.devRef .tc main_arg1) = V (Proc.devRef .tc main_arg1) := by after_results_simp

/-! ## The whole program -/

theorem keep0 : after ops V (Proc.devRef .tc main_arg0) = V (Proc.devRef .tc main_arg0) := by
  rw [ops_split, after_append, after_append, after_append, after_append, after_append, after_append,
    keepE30, keepE20, keepE10, keepD0, keepC0, keepB0, keepA0]
theorem keep1 : after ops V (Proc.devRef .tc main_arg1) = V (Proc.devRef .tc main_arg1) := by
  rw [ops_split, after_append, after_append, after_append, after_append, after_append, after_append,
    keepE31, keepE21, keepE11, keepD1, keepC1, keepB1, keepA1]

/-- The last buffer after the whole program, as a function of the two arguments. -/
theorem after_ops_v54 : after ops V (Proc.devRef .tc main_v54)
    = val_main_v54 (F := F) (V (Proc.devRef .tc main_arg0)) (V (Proc.devRef .tc main_arg1)) := by
  rw [ops_split, after_append, after_append, after_append, after_append, after_append, after_append]
  have h13 := stageA V
  have h20 := stageB (after opsA V) _ h13
  have a1 : after opsB (after opsA V) (Proc.devRef .tc main_arg1) = V (Proc.devRef .tc main_arg1) := by rw [keepB1, keepA1]
  have h32 := stageC32 (after opsB (after opsA V))
  have h33 := stageC33 (after opsB (after opsA V))
  rw [a1] at h32 h33
  have k20 : after opsC (after opsB (after opsA V)) (Proc.devRef .tc main_v20) = val_main_v20 (F := F) (V (Proc.devRef .tc main_arg0)) := by
    rw [keepC20]; exact h20
  have h41 := stageD41 _ _ h32 h33
  have h44 := stageD44 _ _ _ k20 h32 h33
  have h46 := stageE1 _ _ _ h41 h44
  have k41 : after opsE1 (after opsD (after opsC (after opsB (after opsA V)))) (Proc.devRef .tc main_v41)
      = val_main_v41 (F := F) (V (Proc.devRef .tc main_arg1)) := by rw [keepE1_41]; exact h41
  exact stageE3 _ _ _ (stageE2_48 _ _ k41) (stageE2_49 _ _ k41) (stageE2_50 _ _ _ h46)

/-- On every device, from any memory with zero counters: every weakly fair execution of @main terminates with the result
    at the last stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54)
          = val_main_v54 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v54).trans (after_ops_v54 _),
      (h c main_arg0).trans (keep0 _), (h c main_arg1).trans (keep1 _)⟩)
    (run_seq scopedRefs_eq scopedSems_eq defs main (fun _ => ops) main_eq (fun _ => ops_sub) m ρ)

end Cert.ReferenceIdeal.RefStages

end
-- ==== Proof.LibHingePairs.lean ====
/-
  A pairwise ranking hinge summed over the (positive, negative) pairs of one row, as four row statistics.

  For scores `p l` in `[0, 1]` and 0/1 weights `a l` (1 on a positive), the margin-one hinge of the pair
  `(l, n)` is `max 0 (1 - (p l - p n))`; because `p l - p n ≤ 1` it never clips, so it IS `1 - p l + p n`,
  and the sum over all pairs weighted by `a l * (1 - a n)` separates into products of single sums:

      ∑ l, ∑ n, max 0 (1 - (p l - p n)) * (a l * (1 - a n))
        = (∑ a) * (∑ (1 - a)) * 1 - (∑ (1 - a)) * (∑ p * a) + (∑ a) * (∑ p * (1 - a)).

  The number of pairs, `∑ l, ∑ n, a l * (1 - a n)`, is `(∑ a) * (∑ (1 - a))` by the same separation.
  Beside the two real identities: the coercion of reals into the extended reals commutes with finite sums and
  with `max`, the extended quotient of two reals by a nonzero divisor is the real quotient, the words of the
  f32 constants `1.0` and `0.0`, and a one-bit word read as a number (zero-extended and read signed; the
  conjunction of one with the complement of another).
-/
import Idealize.ShloMosaic.PureOps.Ideal
import Idealize.ShloMosaic.PureOps.Ideal.Laws
import Idealize.ShloMosaic.Lib.ValueIdx

noncomputable section

namespace Cert.HingePairs

open Idealize.ShloMosaic
open scoped BigOperators

/-! ## The two identities over the reals -/

/-- The pair count separates: `∑ l, ∑ n, a l * (1 - a n) = (∑ a) * (∑ (1 - a))`. -/
theorem pair_count {ι : Type*} [Fintype ι] (a : ι → ℝ) :
    ∑ l, ∑ n, a l * (1 - a n) = (∑ l, a l) * ∑ n, (1 - a n) :=
  (Finset.sum_mul_sum _ _ _ _).symm

/-- The hinge never clips on scores in `[0, 1]`, and the weighted pair sum separates into row statistics. -/
theorem pair_hinge {ι : Type*} [Fintype ι] (p a : ι → ℝ) (hp0 : ∀ i, 0 ≤ p i) (hp1 : ∀ i, p i ≤ 1) :
    ∑ l, ∑ n, max 0 (1 - (p l - p n)) * (a l * (1 - a n))
      = (∑ l, a l) * (∑ n, (1 - a n)) * 1 - (∑ n, (1 - a n)) * (∑ l, p l * a l)
        + (∑ l, a l) * (∑ n, p n * (1 - a n)) := by
  have h : ∀ l n, max 0 (1 - (p l - p n)) = 1 - (p l - p n) := fun l n =>
    max_eq_right (by linarith [hp0 n, hp1 l])
  simp only [h, mul_one]
  rw [Finset.sum_mul_sum, Finset.sum_mul_sum, Finset.sum_mul_sum,
    Finset.sum_comm (f := fun n l => (1 - a n) * (p l * a l))]
  simp only [← Finset.sum_sub_distrib, ← Finset.sum_add_distrib]
  exact Finset.sum_congr rfl fun l _ => Finset.sum_congr rfl fun n _ => by ring

/-! ## Reals inside the extended reals -/

/-- The coercion commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with `max`. -/
theorem coe_max (x y : ℝ) : ((max x y : ℝ) : EReal) = max (x : EReal) (y : EReal) :=
  (EReal.coe_strictMono.monotone).map_max

/-- The extended quotient of two reals, the divisor not zero, is the real quotient. -/
theorem div_coe_coe (x : ℝ) {y : ℝ} (h : y ≠ 0) : Ideal.div (x : EReal) (y : EReal) = ((x / y : ℝ) : EReal) := by
  rw [Ideal.div_coe h, ← EReal.coe_mul, one_div, div_eq_mul_inv]

/-- The f32 word of `1.0` is the real one. -/
theorem ofBits_one : Ideal.ofBits .f32 0x3F800000#32 = ((1 : ℝ) : EReal) := by
  simp [Ideal.ofBits, Ideal.ieee, -EReal.coe_mul]; norm_num

/-- The f32 word of `0.0` is the real zero. -/
theorem ofBits_zero : Ideal.ofBits .f32 0x00000000#32 = ((0 : ℝ) : EReal) := by
  rw [Ideal.ofBits_zero_f32, EReal.coe_zero]

/-! ## A one-bit word as a number -/

theorem bv1_cases (c : BitVec 1) : c = 0#1 ∨ c = 1#1 := by
  by_cases h : c = 1#1
  · exact Or.inr h
  · exact Or.inl (ValueIdx.eq_zero_of_ne_one h)

/-- A one-bit word is 0 or 1 as a number. -/
theorem toNat_bv1_cases (c : BitVec 1) : (c.toNat : ℝ) = 0 ∨ (c.toNat : ℝ) = 1 := by
  rcases bv1_cases c with rfl | rfl
  · left; simp
  · right; simp

/-- Zero-extended to 32 bits and read signed, a one-bit word is its own number. -/
theorem toInt_setWidth_bv1 (c : BitVec 1) : (((c.setWidth 32).toInt : ℤ) : ℝ) = (c.toNat : ℝ) := by
  rcases bv1_cases c with rfl | rfl <;> simp

/-- The conjunction of a one-bit word with the complement of another is the product `c * (1 - d)`. -/
theorem toNat_and_not_bv1 (c d : BitVec 1) :
    ((IntOp.andi c (~~~d)).toNat : ℝ) = (c.toNat : ℝ) * (1 - (d.toNat : ℝ)) := by
  rcases bv1_cases c with rfl | rfl <;> rcases bv1_cases d with rfl | rfl <;> simp [IntOp.andi]

end Cert.HingePairs

end
-- ==== Proof.LibSoftmaxRow.lean ====
/-
  A row-wise softmax on the extended reals, and the vector-unit and host operations that compute its pieces,
  each read at an index.

  For a row `s : Fin n → EReal` and a starting value `init`, the row's maximum is the fold of `max` from `init`
  over the row, each entry is shifted by that maximum and exponentiated, and the softmax entry is the quotient of a
  shifted exponential by the sum of all of them along the row. Nothing here needs an entry to be finite: the
  definitions are stated with the operations as they are on the extended reals.

  The readings: a `[a] → [a, 1]` shape cast and an `[a, 1] → [a, b]` broadcast (a reduction kept as a column and
  spread back over the row); the index a one-axis reduction inserts, for the last axis of a rank-2 and of a rank-3
  array; the vector unit's maximum and sum over the last axis of an `[a, n]` block; the host's maximum over the
  last axis of a `[p, a, n]` array; and the f32 word of −∞ as the least extended real.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibSoftmaxRow

open Idealize.ShloMosaic Idealize.ShloMosaic.ValueIdx

/-! ## The row functions -/

/-- The maximum of a row, folded from a starting value. -/
def rowMax {n : ℕ} (init : EReal) (s : Fin n → EReal) : EReal :=
  (Finset.univ : Finset (Fin n)).fold max init s

/-- An entry minus the row's maximum, exponentiated. -/
def expShift {n : ℕ} (init : EReal) (s : Fin n → EReal) (c : Fin n) : EReal :=
  Ideal.exp (s c - rowMax init s)

/-- The softmax entry: a shifted exponential over the sum of the row's shifted exponentials. -/
def softmax {n : ℕ} (init : EReal) (s : Fin n → EReal) (c : Fin n) : EReal :=
  Ideal.div (expShift init s c) (∑ k : Fin n, expShift init s k)

/-- The f32 word of −∞ is the least extended real. -/
theorem ofBits_negInf : Ideal.ofBits .f32 0xFF800000#32 = ⊥ := by
  simp [Ideal.ofBits, Ideal.ieee]

/-- A maximum with −∞ changes nothing. -/
theorem max_negInf (x : EReal) : max (Ideal.ofBits .f32 0xFF800000#32) x = x := by
  rw [ofBits_negInf]; exact max_eq_right bot_le

/-! ## A reduction kept as a column and spread back over the row -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The index a reduction over the last axis inserts -/

/-- Rank 2: the reduced index `r` with column `k` put back is `(r, k)`. -/
theorem lift_row2 {a n : ℕ} (h : (⟨2, ![a, n]⟩ : Shape).Reduces [1] (⟨1, ![a]⟩ : Shape)) (r : Fin a)
    (k : Fin ((⟨2, ![a, n]⟩ : Shape).size 1)) : h.lift (ix1 r) k = ix2 r (⟨k.val, k.isLt⟩ : Fin n) := by
  funext c; apply Fin.ext
  fin_cases c <;> rfl

/-- Rank 3: the reduced index `(p, r)` with the last coordinate `k` put back is `(p, r, k)`. -/
theorem lift_row3 {p a n : ℕ} (h : (⟨3, ![p, a, n]⟩ : Shape).Reduces [2] (⟨2, ![p, a]⟩ : Shape)) (b : Fin p) (r : Fin a)
    (k : Fin ((⟨3, ![p, a, n]⟩ : Shape).size 2)) : h.lift (ix2 b r) k = ix3 b r (⟨k.val, k.isLt⟩ : Fin n) := by
  funext c; apply Fin.ext
  fin_cases c <;> rfl

/-! ## The vector unit's reductions over the last axis of an `[a, n]` block -/

/-- The maximum over a row, from the accumulator's value. -/
theorem multiReduction_max_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = rowMax (Ideal.ofBits .f32 acc) fun k : Fin n => src (ix2 r k) := by
  rw [Ideal.multiReduction_maximumf_single]
  have hf : (src ∘ h.lift (ix1 r)) = fun k : Fin n => src (ix2 r k) :=
    funext fun k => congrArg src (lift_row2 h r k)
  exact congrArg (fun f => Finset.fold max (Ideal.ofBits .f32 acc) f (Finset.univ : Finset (Fin n))) hf

/-- The sum over a row. -/
theorem multiReduction_add_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin n, src (ix2 r k) := by
  rw [Ideal.multiReduction_add_single]
  exact Finset.sum_congr rfl fun k _ => congrArg src (lift_row2 h r k)

/-! ## The host's maximum over the last axis of a `[p, a, n]` array -/

/-- The host's reduce with a maximum body over the last axis, at `(b, r)`: the row's maximum from the initial value. -/
theorem hostReduce_max_row {p a n : ℕ} {u : Shape} (x : (⟨3, ![p, a, n]⟩ : Shape).Idx → Ideal .f32) (init : u.Idx → Ideal .f32)
    (h' : (⟨3, ![p, a, n]⟩ : Shape).ReducesTo [2] (⟨2, ![p, a]⟩ : Shape))
    (h : (⟨3, ![p, a, n]⟩ : Shape).Reduces [2] (⟨2, ![p, a]⟩ : Shape)) (hu : 0 < u.numel) (b : Fin p) (r : Fin a) :
    Host.reduce FloatOps.maximumf x init h' hu (ix2 b r)
      = rowMax (init (Shape.Idx.first hu)) fun k : Fin n => x (ix3 b r k) := by
  rw [Host.reduce_eq_fold_single FloatOps.maximumf x init h' h hu]
  have hf : (x ∘ h.lift (ix2 b r)) = fun k : Fin n => x (ix3 b r k) :=
    funext fun k => congrArg x (lift_row3 h b r k)
  exact congrArg (fun f => Finset.fold max (init (Shape.Idx.first hu)) f (Finset.univ : Finset (Fin n))) hf

end Cert.LibSoftmaxRow

end
-- ==== Proof.RowLaw.lean ====
/-
  The row-wise law on the extended reals that joins the two programs.

  For one row of nonnegative squared distances `s : Fin n → EReal` and two one-bit masks `P`, `N` over the row
  (the positives and the negatives of the row's anchor), one program takes the masked maximum and minimum of the
  SQUARED distances and applies the square root afterwards, to the maximum clamped at zero; the other takes the square
  root of every entry first (written `dist`: √x for x > 0 and 0 otherwise) and then the masked maximum and minimum.
  The square root is monotone on the extended reals and fixes 0, ⊥ and ⊤, so it commutes with a maximum and with a
  minimum; the clamp at zero changes nothing when the row has a positive (the maximum of nonnegative numbers is
  nonnegative) and never changes the minimum. A row with no positive or no negative is zeroed by a selection on
  both sides, so the two losses agree on every row, and no entry needs to be finite.

  "The row has a positive" is computed on one side as "the maximum of the 0/1 indicator exceeds 0" and on the other as
  the disjunction of the mask's bits; the number of valid rows on one side as a sum of 0/1 numbers and on the other as
  a 32-bit sum of 0/1 words read as a signed integer, which for fewer than 2³¹ rows is the same natural number.
-/
import Idealize.ShloMosaic.PureOps.Ideal
import Idealize.ShloMosaic.PureOps.Ideal.Laws
import Idealize.ShloMosaic.Lib.ValueIdx
import proofs.«132673_j7172595384725_2_alg».proof.Proof.LibHingePairs
import proofs.«132673_j7172595384725_2_alg».proof.Proof.LibSoftmaxRow

noncomputable section

namespace TripletRows

open Idealize.ShloMosaic

/-! ## The f32 words that occur, as extended reals -/

theorem w0 : Ideal.ofBits .f32 0x00000000#32 = (0 : EReal) := by
  rw [Cert.HingePairs.ofBits_zero]; exact EReal.coe_zero
theorem w1 : Ideal.ofBits .f32 0x3F800000#32 = (1 : EReal) := by
  rw [Cert.HingePairs.ofBits_one]; exact EReal.coe_one
theorem wBot : Ideal.ofBits .f32 0xFF800000#32 = (⊥ : EReal) := Cert.LibSoftmaxRow.ofBits_negInf
theorem wTop : Ideal.ofBits .f32 0x7F800000#32 = (⊤ : EReal) := by
  simp [Ideal.ofBits, Ideal.ieee]

/-! ## One-bit words -/

theorem bv1_ext {a b : BitVec 1} (h : a = 1#1 ↔ b = 1#1) : a = b := by
  rcases Cert.HingePairs.bv1_cases a with ha | ha <;> rcases Cert.HingePairs.bv1_cases b with hb | hb
  · rw [ha, hb]
  · exact absurd (h.mpr hb) (by rw [ha]; decide)
  · exact absurd (h.mp ha) (by rw [hb]; decide)
  · rw [ha, hb]

theorem ofBool_eq_one {p : Bool} : BitVec.ofBool p = 1#1 ↔ p = true := by cases p <;> decide

theorem ori_eq_one {x y : BitVec 1} : IntOp.ori x y = 1#1 ↔ x = 1#1 ∨ y = 1#1 := by
  revert x y; unfold IntOp.ori; decide

theorem andi_eq_one {x y : BitVec 1} : IntOp.andi x y = 1#1 ↔ x = 1#1 ∧ y = 1#1 := by
  revert x y; unfold IntOp.andi; decide

/-! ## The square root on the extended reals -/

theorem sqrt_zero : Ideal.sqrt 0 = 0 := by
  show Ideal.sqrt ((0 : ℝ) : EReal) = 0
  rw [Ideal.sqrt_coe, if_neg (lt_irrefl 0), Real.sqrt_zero]; rfl

theorem sqrt_mono : Monotone Ideal.sqrt := by
  intro x y hxy
  induction x with
  | bot => rw [Ideal.sqrt_bot]; exact bot_le
  | top => rw [top_le_iff.mp hxy]
  | coe r =>
    induction y with
    | bot => exact absurd hxy (by simp)
    | top => rw [Ideal.sqrt_top]; exact le_top
    | coe t =>
      have hrt : r ≤ t := EReal.coe_le_coe_iff.mp hxy
      rw [Ideal.sqrt_coe, Ideal.sqrt_coe]
      by_cases hr : r < 0
      · rw [if_pos hr]; exact bot_le
      · rw [if_neg hr, if_neg (by linarith)]
        exact EReal.coe_le_coe_iff.mpr (Real.sqrt_le_sqrt hrt)

/-- The pairwise distance as the reference spells it: √x where x > 0, else 0 (the inner selection keeps the square
    root's argument positive). -/
def dist (x : EReal) : EReal :=
  Scalar.select (Ideal.cmp .ogt x 0) (Ideal.sqrt (Scalar.select (Ideal.cmp .ogt x 0) x 1)) 0

theorem dist_eq {x : EReal} (hx : 0 ≤ x) : dist x = Ideal.sqrt x := by
  unfold dist
  by_cases h : 0 < x
  · have hc : Ideal.cmp .ogt x 0 = 1#1 := by
      show BitVec.ofBool (decide (0 < x)) = 1#1
      rw [ofBool_eq_one]; exact decide_eq_true h
    rw [hc, ValueIdx.select_one, ValueIdx.select_one]
  · have hc : Ideal.cmp .ogt x 0 = 0#1 := by
      show BitVec.ofBool (decide (0 < x)) = 0#1
      rw [decide_eq_false h]; rfl
    have hx0 : x = 0 := le_antisymm (not_lt.mp h) hx
    rw [hc, ValueIdx.select_zero, hx0, sqrt_zero]

variable {n : ℕ}

/-! ## The hardest positive and the hardest negative of a row -/

/-- With a positive in the row, the square root of the clamped masked maximum of the squares is the masked maximum of
    the distances. -/
theorem hardPos (s : Fin n → EReal) (hs : ∀ j, 0 ≤ s j) (P : Fin n → BitVec 1) (hP : ∃ j, P j = 1#1) :
    Ideal.sqrt (max ((Finset.univ : Finset (Fin n)).fold max ⊥ fun j => Scalar.select (P j) (s j) ⊥) 0)
      = (Finset.univ : Finset (Fin n)).fold max ⊥ fun j => Scalar.select (P j) (dist (s j)) ⊥ := by
  obtain ⟨j0, h0⟩ := hP
  have hM : (0 : EReal) ≤ (Finset.univ : Finset (Fin n)).fold max ⊥ fun j => Scalar.select (P j) (s j) ⊥ :=
    (Finset.le_fold_max _).mpr (Or.inr ⟨j0, Finset.mem_univ _, by rw [h0, ValueIdx.select_one]; exact hs j0⟩)
  rw [max_eq_left hM, ← Finset.fold_hom (op := max) (op' := max) (m := Ideal.sqrt) (fun x y => sqrt_mono.map_max),
    Ideal.sqrt_bot]
  refine Finset.fold_congr fun j _ => ?_
  rcases Cert.HingePairs.bv1_cases (P j) with h | h
  · rw [h, ValueIdx.select_zero, ValueIdx.select_zero, Ideal.sqrt_bot]
  · rw [h, ValueIdx.select_one, ValueIdx.select_one, dist_eq (hs j)]

/-- The square root of the clamped masked minimum of the squares is the masked minimum of the distances, with or
    without a negative in the row. -/
theorem hardNeg (s : Fin n → EReal) (hs : ∀ j, 0 ≤ s j) (N : Fin n → BitVec 1) :
    Ideal.sqrt (max ((Finset.univ : Finset (Fin n)).fold min ⊤ fun j => Scalar.select (N j) (s j) ⊤) 0)
      = (Finset.univ : Finset (Fin n)).fold min ⊤ fun j => Scalar.select (N j) (dist (s j)) ⊤ := by
  have hM : (0 : EReal) ≤ (Finset.univ : Finset (Fin n)).fold min ⊤ fun j => Scalar.select (N j) (s j) ⊤ :=
    (Finset.le_fold_min _).mpr ⟨le_top, fun j _ => by
      rcases Cert.HingePairs.bv1_cases (N j) with h | h
      · rw [h, ValueIdx.select_zero]; exact le_top
      · rw [h, ValueIdx.select_one]; exact hs j⟩
  rw [max_eq_left hM, ← Finset.fold_hom (op := min) (op' := min) (m := Ideal.sqrt) (fun x y => sqrt_mono.map_min),
    Ideal.sqrt_top]
  refine Finset.fold_congr fun j _ => ?_
  rcases Cert.HingePairs.bv1_cases (N j) with h | h
  · rw [h, ValueIdx.select_zero, ValueIdx.select_zero, Ideal.sqrt_top]
  · rw [h, ValueIdx.select_one, ValueIdx.select_one, dist_eq (hs j)]

/-! ## "The mask has a set bit", two ways -/

/-- As the maximum of the 0/1 indicator exceeding 0. -/
def anyK (P : Fin n → BitVec 1) : BitVec 1 :=
  Ideal.cmp .ogt ((Finset.univ : Finset (Fin n)).fold max ⊥ fun j => Scalar.select (P j) (1 : EReal) 0) 0

/-- As the disjunction of the bits. -/
def anyR (P : Fin n → BitVec 1) : BitVec 1 :=
  (Finset.univ : Finset (Fin n)).fold IntOp.ori 0#1 P

theorem anyK_eq_one (P : Fin n → BitVec 1) : anyK P = 1#1 ↔ ∃ j, P j = 1#1 := by
  unfold anyK
  show BitVec.ofBool (decide ((0 : EReal) < _)) = 1#1 ↔ _
  rw [ofBool_eq_one, decide_eq_true_iff, Finset.lt_fold_max]
  constructor
  · rintro (h | ⟨j, _, hj⟩)
    · exact absurd h (not_lt_bot)
    · refine ⟨j, ?_⟩
      rcases Cert.HingePairs.bv1_cases (P j) with h | h
      · rw [h, ValueIdx.select_zero] at hj; exact absurd hj (lt_irrefl _)
      · exact h
  · rintro ⟨j, hj⟩
    exact Or.inr ⟨j, Finset.mem_univ _, by rw [hj, ValueIdx.select_one]; exact zero_lt_one⟩

theorem fold_ori_eq_one (P : Fin n → BitVec 1) (S : Finset (Fin n)) :
    S.fold IntOp.ori 0#1 P = 1#1 ↔ ∃ j ∈ S, P j = 1#1 := by
  induction S using Finset.induction_on with
  | empty => rw [Finset.fold_empty]; constructor
             · intro h; exact absurd h (by decide)
             · rintro ⟨j, hj, _⟩; exact absurd hj (Finset.notMem_empty j)
  | insert a S ha ih =>
    rw [Finset.fold_insert ha, ori_eq_one, ih, Finset.exists_mem_insert]

theorem anyR_eq_one (P : Fin n → BitVec 1) : anyR P = 1#1 ↔ ∃ j, P j = 1#1 := by
  unfold anyR
  rw [fold_ori_eq_one]
  exact ⟨fun ⟨j, _, h⟩ => ⟨j, h⟩, fun ⟨j, h⟩ => ⟨j, Finset.mem_univ _, h⟩⟩

theorem anyK_eq_anyR (P : Fin n → BitVec 1) : anyK P = anyR P :=
  bv1_ext ((anyK_eq_one P).trans (anyR_eq_one P).symm)

/-! ## The row's loss, two ways -/

/-- Square root after the masked maximum and minimum of the squares; validity from the indicator maxima. -/
def lossK (c : EReal) (s : Fin n → EReal) (P N : Fin n → BitVec 1) : EReal :=
  Scalar.select (IntOp.andi (anyK P) (anyK N))
    (max (Ideal.sqrt (max ((Finset.univ : Finset (Fin n)).fold max ⊥ fun j => Scalar.select (P j) (s j) ⊥) 0)
        - Ideal.sqrt (max ((Finset.univ : Finset (Fin n)).fold min ⊤ fun j => Scalar.select (N j) (s j) ⊤) 0) + c) 0) 0

/-- Masked maximum and minimum of the distances; validity from the masks' disjunctions. -/
def lossR (c : EReal) (s : Fin n → EReal) (P N : Fin n → BitVec 1) : EReal :=
  Scalar.select (IntOp.andi (anyR P) (anyR N))
    (max (((Finset.univ : Finset (Fin n)).fold max ⊥ fun j => Scalar.select (P j) (dist (s j)) ⊥)
        - ((Finset.univ : Finset (Fin n)).fold min ⊤ fun j => Scalar.select (N j) (dist (s j)) ⊤) + c) 0) 0

theorem lossK_eq_lossR (c : EReal) (s : Fin n → EReal) (hs : ∀ j, 0 ≤ s j) (P N : Fin n → BitVec 1) :
    lossK c s P N = lossR c s P N := by
  unfold lossK lossR
  rw [anyK_eq_anyR P, anyK_eq_anyR N]
  rcases Cert.HingePairs.bv1_cases (IntOp.andi (anyR P) (anyR N)) with h | h
  · rw [h, ValueIdx.select_zero, ValueIdx.select_zero]
  · have hP : ∃ j, P j = 1#1 := (anyR_eq_one P).mp (andi_eq_one.mp h).1
    rw [hardPos s hs P hP, hardNeg s hs N]

end TripletRows

end
-- ==== Proof.Spec.lean ====
/-
  What both programs compute, as one function of the embeddings `x : [8192, 128]` (extended reals) and the labels
  `lab : [8192]` (32-bit words), index by index.

  For an anchor row i and a column j: the squared distance is ‖x_i‖² + ‖x_j‖² − 2·⟨x_i, x_j⟩ clamped at zero, each
  squared norm a sum from the zero word over the 128 features and the inner product the sum of the products; j is a
  positive of i when the labels agree and j ≠ i, a negative when the labels differ. A row's loss is the hinge
  max(hardest positive distance − hardest negative distance + margin, 0), kept only when the row has a positive and a
  negative. The result is the sum of the row losses over the number of valid rows (at least one), or zero when no row is
  valid. The margin and the factor two are kept as the f32 words both programs carry.
-/
import proofs.«132673_j7172595384725_2_alg».proof.Proof.RowLaw

noncomputable section

namespace TripletSpec

open Idealize.ShloMosaic Idealize.ShloMosaic.ValueIdx TripletRows

abbrev SX : Shape := ⟨2, ![8192, 128]⟩
abbrev SL : Shape := ⟨1, ![8192]⟩

variable (x : SX.Idx → EReal) (lab : SL.Idx → BitVec 32)

/-- ‖x_i‖², summed from the zero word. -/
def norm2 (i : Fin 8192) : EReal :=
  Ideal.ofBits .f32 0x00000000#32 + ∑ k : Fin 128, x (ix2 i k) * x (ix2 i k)

/-- ⟨x_i, x_j⟩. -/
def cross (i j : Fin 8192) : EReal := ∑ k : Fin 128, x (ix2 i k) * x (ix2 j k)

/-- The squared distance of rows i and j, clamped at zero. -/
def sq (i j : Fin 8192) : EReal :=
  max (norm2 x i + norm2 x j - Ideal.ofBits .f32 0x40000000#32 * cross x i j) 0

theorem sq_nonneg (i j : Fin 8192) : 0 ≤ sq x i j := le_max_right _ _

/-- Rows i and j carry the same label. -/
def same (i j : Fin 8192) : BitVec 1 := IntOp.cmpi .eq (lab (ix1 i)) (lab (ix1 j))

/-- Row i and column j are the same position. -/
def eye (i j : Fin 8192) : BitVec 1 := IntOp.cmpi .eq (BitVec.ofNat 32 i.val) (BitVec.ofNat 32 j.val)

/-- j is a positive of i: same label, another position. -/
def posM (i j : Fin 8192) : BitVec 1 := IntOp.andi (same lab i j) (~~~ eye i j)

/-- j is a negative of i: another label. -/
def negM (i j : Fin 8192) : BitVec 1 := ~~~ same lab i j

/-- The margin, as the f32 word both programs carry. -/
def margin : EReal := Ideal.ofBits .f32 0x3E99999A#32

/-- Row i's loss. -/
def rowLoss (i : Fin 8192) : EReal := lossR margin (sq x i) (posM lab i) (negM lab i)

/-- Row i has a positive and a negative. -/
def rowValid (i : Fin 8192) : BitVec 1 := IntOp.andi (anyR (posM lab i)) (anyR (negM lab i))

/-- The sum of the row losses, from the zero word. -/
def total : EReal := Ideal.ofBits .f32 0x00000000#32 + ∑ i : Fin 8192, rowLoss x lab i

/-- The number of valid rows, as a 32-bit sum of 0/1 words. -/
def countW : BitVec 32 :=
  (Finset.univ : Finset (Fin 8192)).fold IntOp.addi 0#32 fun i => (rowValid lab i).setWidth 32

/-- The mean row loss over the valid rows, zero when there is none. -/
def result : EReal :=
  Scalar.select (IntOp.cmpi .sgt (countW lab) 0#32)
    (Ideal.div (total x lab) (((IntOp.maxsi (countW lab) 1#32).toInt : ℝ) : EReal))
    (Ideal.ofBits .f32 0x00000000#32)

end TripletSpec

end
-- ==== Proof.RefValue.lean ====
/-
  The reference program computes the specification.

  The reference is a list of host operations on the embeddings `x : [8192, 128]` and the labels `lab : [8192]`.
  Each stage is read at an index and identified with the corresponding piece of the specification: the squared norms
  and inner products, the clamped squared distance, the distance (a guarded square root), the label and position
  masks, the masked row maximum and minimum of the distances, the rows' validity bits, the hinge loss of a row, and
  at the end the sum of the row losses over the number of valid rows.
-/
import proofs.«132673_j7172595384725_2_alg».proof.Proof.RefRead
import proofs.«132673_j7172595384725_2_alg».proof.Proof.Spec
import Idealize.ShloMosaic.PureOps.Reduce
import Idealize.ShloMosaic.Lib.ValueIdx

noncomputable section

namespace Cert.ReferenceIdeal.RefValue

open Cert.ReferenceIdeal Cert.ReferenceIdeal.ReadP Idealize.ShloMosaic Idealize.ShloMosaic.ValueIdx TripletSpec TripletRows

/-- The embeddings: an extended real at every index of `[8192, 128]`. -/
abbrev XT : Type := (⟨S8192x128, .f32⟩ : BufTy).Contents (Elt Ideal)
/-- The labels: a 32-bit word at every index of `[8192]`. -/
abbrev LT : Type := (⟨S8192, .i32⟩ : BufTy).Contents (Elt Ideal)

/-! ## Reductions along one axis, read at an index -/

/-- A reduction of `[8192, 8192]` along its second axis with a commutative and associative body is, at row `i`, the
    fold of the body over the row from the initial value. -/
theorem reduce_row {α : Type} (f : α → α → α) [Std.Commutative f] [Std.Associative f] (y : S8192x8192.Idx → α)
    (init : S_.Idx → α) (h' : S8192x8192.ReducesTo [1] S8192) (hu : 0 < S_.numel) (i : Fin 8192) :
    Host.reduce f y init h' hu (ix1 i)
      = (Finset.univ : Finset (Fin 8192)).fold f (init (Shape.Idx.first hu)) fun j => y (ix2 i j) := by
  have h : S8192x8192.Reduces [1] S8192 := by decide
  rw [Host.reduce_eq_fold_single f y init h' h hu]
  have hf : (y ∘ h.lift (ix1 i)) = fun k : Fin 8192 => y (ix2 i k) :=
    funext fun k => congrArg y (Cert.LibSoftmaxRow.lift_row2 h i k)
  exact congrArg (fun g => Finset.fold f (init (Shape.Idx.first hu)) g (Finset.univ : Finset (Fin 8192))) hf

/-- A rank-1 index set of extent 8192 is its coordinate's range. -/
def idxEquiv1 : S8192.Idx ≃ Fin 8192 where
  toFun j := j 0
  invFun i := ix1 i
  left_inv j := (eq_ix1 j).symm
  right_inv _ := rfl

/-- A reduction of `[8192]` along its only axis with a commutative and associative body is the fold of the body over
    all entries from the initial value: every entry drops to the one index of the scalar result. -/
theorem reduce_all {α : Type} (f : α → α → α) [Std.Commutative f] [Std.Associative f] (y : S8192.Idx → α)
    (init : S_.Idx → α) (h' : S8192.ReducesTo [0] S_) (hu : 0 < S_.numel) (j : S_.Idx) :
    Host.reduce f y init h' hu j
      = (Finset.univ : Finset (Fin 8192)).fold f (init (Shape.Idx.first hu)) fun i => y (ix1 i) := by
  rw [Host.reduce_eq_fold f y init h' hu j]
  have hfil : (Finset.univ.filter fun i : S8192.Idx => h'.drop i = j) = Finset.univ :=
    Finset.filter_true_of_mem fun i _ => funext fun a => a.elim0
  rw [hfil, ← Finset.map_univ_equiv idxEquiv1.symm, Finset.fold_map]
  rfl

/-- A sum over the indices of `[8192]` is the sum over the coordinate. -/
theorem sum_idx1 (g : S8192.Idx → EReal) : ∑ j, g j = ∑ i : Fin 8192, g (ix1 i) := by
  rw [← Equiv.sum_comp idxEquiv1.symm g]
  rfl

/-! ## The squared distances -/

/-- Stage 1: the squared norm of row `i`, summed from the zero word. -/
theorem v1_eq (x : XT) (i : Fin 8192) : val_main_v1 (F := Ideal) x (ix1 i) = norm2 x i := by
  have e : ∀ k : Fin 128, idx_main_v1 (ix1 i) k = ix2 i k := fun k =>
    funext fun a => Fin.ext (by match a with | ⟨0, _⟩ => rfl | ⟨1, _⟩ => rfl)
  rw [val_main_v1_apply]
  unfold norm2
  refine congrArg₂ (· + ·) rfl (Finset.sum_congr rfl fun k _ => ?_)
  rw [val_main_v0_apply, e]
  rfl

/-- Stage 8: the inner product of rows `i` and `j` (a contraction against the transposed embeddings). -/
theorem v8_eq (x : XT) (i j : Fin 8192) : val_main_v8 (F := Ideal) x (ix2 i j) = cross x i j := by
  have e1 : ∀ k : Fin 128, lidx_main_v8 (ix2 i j) k = ix2 i k := fun k =>
    funext fun a => Fin.ext (by match a with | ⟨0, _⟩ => rfl | ⟨1, _⟩ => rfl)
  have e2 : ∀ k : Fin 128, idx_main_v7 (ridx_main_v8 (ix2 i j) k) = ix2 j k := fun k =>
    funext fun a => Fin.ext (by match a with | ⟨0, _⟩ => rfl | ⟨1, _⟩ => rfl)
  rw [val_main_v8_apply]
  unfold cross
  refine Finset.sum_congr rfl fun k _ => ?_
  rw [val_main_v7_apply, e1, e2]

/-- Stage 13: the squared distance ‖x_i‖² + ‖x_j‖² − 2·⟨x_i, x_j⟩, clamped at zero. -/
theorem v13_eq (x : XT) (i j : Fin 8192) : val_main_v13 (F := Ideal) x (ix2 i j) = sq x i j := by
  have e4 : idx_main_v2 (idx_main_v4 (ix2 i j)) = ix1 i :=
    funext fun a => Fin.ext (by match a with | ⟨0, _⟩ => rfl)
  have e5 : idx_main_v3 (idx_main_v5 (ix2 i j)) = ix1 j :=
    funext fun a => Fin.ext (by match a with | ⟨0, _⟩ => rfl)
  rw [val_main_v13_apply, val_main_v11_apply, val_main_v6_apply, val_main_v4_apply, val_main_v2_apply,
    val_main_v5_apply, val_main_v3_apply, val_main_v10_apply, val_main_v9_apply, val_main_v12_apply, e4, e5,
    v1_eq, v1_eq, v8_eq]
  show max (norm2 x i + norm2 x j - Ideal.ofBits .f32 0x40000000#32 * cross x i j) (Ideal.ofBits .f32 0x00000000#32) = _
  rw [w0]
  rfl

/-- Stage 20: the distance, the square root taken only where the squared distance is positive. -/
theorem v20_eq (x : XT) (i j : Fin 8192) : val_main_v20 (F := Ideal) x (ix2 i j) = dist (sq x i j) := by
  rw [val_main_v20_apply, val_main_v18_apply, val_main_v19_apply, val_main_v16_apply, val_main_v15_apply,
    val_main_v17_apply, val_main_v14_apply, val_main_call1_v1_apply, val_main_call0_v1_apply, v13_eq]
  show Scalar.select (Ideal.cmp .ogt (sq x i j) (Ideal.ofBits .f32 0x00000000#32))
      (Ideal.sqrt (Scalar.select (Ideal.cmp .ogt (sq x i j) (Ideal.ofBits .f32 0x00000000#32)) (sq x i j)
        (Ideal.ofBits .f32 0x3F800000#32))) (Ideal.ofBits .f32 0x00000000#32) = _
  rw [w0, w1]
  rfl

/-! ## The masks -/

/-- Stage 25: rows `i` and `j` carry the same label. -/
theorem v25_eq (lab : LT) (i j : Fin 8192) : val_main_v25 (F := Ideal) lab (ix2 i j) = same lab i j := by
  have e1 : idx_main_v21 (idx_main_v23 (ix2 i j)) = ix1 i :=
    funext fun a => Fin.ext (by match a with | ⟨0, _⟩ => rfl)
  have e2 : idx_main_v22 (idx_main_v24 (ix2 i j)) = ix1 j :=
    funext fun a => Fin.ext (by match a with | ⟨0, _⟩ => rfl)
  rw [val_main_v25_apply, val_main_v23_apply, val_main_v21_apply, val_main_v24_apply, val_main_v22_apply, e1, e2]
  rfl

/-- Stage 30: row `i` and column `j` are the same position (the row counter, plus a zero word, against the column
    counter). -/
theorem v30_eq (i j : Fin 8192) : val_main_v30 (F := Ideal) (ix2 i j) = eye i j := by
  rw [val_main_v30_apply, val_main_v29_apply, val_main_v26_apply, val_main_v27_apply, val_main_v28_apply,
    val_main_c_apply]
  show IntOp.cmpi .eq (BitVec.ofNat 32 i.val + 0#32) (BitVec.ofNat 32 j.val) = _
  rw [BitVec.add_zero]
  rfl

/-- Stage 32: `j` is a positive of `i`. -/
theorem v32_eq (lab : LT) (i j : Fin 8192) : val_main_v32 (F := Ideal) lab (ix2 i j) = posM lab i j := by
  rw [val_main_v32_apply, val_main_v31_apply, v25_eq, v30_eq]
  rfl

/-- Stage 33: `j` is a negative of `i`. -/
theorem v33_eq (lab : LT) (i j : Fin 8192) : val_main_v33 (F := Ideal) lab (ix2 i j) = negM lab i j := by
  rw [val_main_v33_apply, v25_eq]
  rfl

/-! ## The rows -/

/-- Stage 36: the hardest positive of row `i`, the maximum from −∞ of the distances to the positives (a column that
    is not a positive contributes the negated +∞ word, which is −∞). -/
theorem v36_eq (x : XT) (lab : LT) (i : Fin 8192) :
    val_main_v36 (F := Ideal) x lab (ix1 i)
      = (Finset.univ : Finset (Fin 8192)).fold max ⊥ fun j => Scalar.select (posM lab i j) (dist (sq x i j)) ⊥ := by
  have hb : ∀ j : Fin 8192,
      val_main_v35 (F := Ideal) x lab (ix2 i j) = Scalar.select (posM lab i j) (dist (sq x i j)) ⊥ := by
    intro j
    rw [val_main_v35_apply, v32_eq, v20_eq, val_main_call2_v0_apply, val_main_v34_apply, val_main_cst_6_apply]
    show Scalar.select (posM lab i j) (dist (sq x i j)) (-(Ideal.ofBits .f32 0x7F800000#32)) = _
    rw [wTop, EReal.neg_top]
  have hi : ∀ hu : 0 < S_.numel, val_main_cst_7 (F := Ideal) (Shape.Idx.first hu) = ⊥ := fun _ => wBot
  unfold val_main_v36
  refine (reduce_row _ _ _ _ _ i).trans ?_
  rw [hi]
  exact Finset.fold_congr fun j _ => hb j

/-- Stage 38: the hardest negative of row `i`, the minimum from +∞ of the distances to the negatives. -/
theorem v38_eq (x : XT) (lab : LT) (i : Fin 8192) :
    val_main_v38 (F := Ideal) x lab (ix1 i)
      = (Finset.univ : Finset (Fin 8192)).fold min ⊤ fun j => Scalar.select (negM lab i j) (dist (sq x i j)) ⊤ := by
  have hb : ∀ j : Fin 8192,
      val_main_v37 (F := Ideal) x lab (ix2 i j) = Scalar.select (negM lab i j) (dist (sq x i j)) ⊤ := by
    intro j
    rw [val_main_v37_apply, v33_eq, v20_eq, val_main_call3_v0_apply, val_main_cst_8_apply]
    show Scalar.select (negM lab i j) (dist (sq x i j)) (Ideal.ofBits .f32 0x7F800000#32) = _
    rw [wTop]
  have hi : ∀ hu : 0 < S_.numel, val_main_cst_9 (F := Ideal) (Shape.Idx.first hu) = ⊤ := fun _ => wTop
  unfold val_main_v38
  refine (reduce_row _ _ _ _ _ i).trans ?_
  rw [hi]
  exact Finset.fold_congr fun j _ => hb j

/-- Stage 39: row `i` has a positive (the disjunction of the row's positive bits). -/
theorem v39_eq (lab : LT) (i : Fin 8192) : val_main_v39 (F := Ideal) lab (ix1 i) = anyR (posM lab i) := by
  unfold val_main_v39 anyR
  refine (reduce_row _ _ _ _ _ i).trans ?_
  exact Finset.fold_congr fun j _ => v32_eq lab i j

/-- Stage 40: row `i` has a negative. -/
theorem v40_eq (lab : LT) (i : Fin 8192) : val_main_v40 (F := Ideal) lab (ix1 i) = anyR (negM lab i) := by
  unfold val_main_v40 anyR
  refine (reduce_row _ _ _ _ _ i).trans ?_
  exact Finset.fold_congr fun j _ => v33_eq lab i j

/-- Stage 41: row `i` is valid. -/
theorem v41_eq (lab : LT) (i : Fin 8192) : val_main_v41 (F := Ideal) lab (ix1 i) = rowValid lab i := by
  rw [val_main_v41_apply, v39_eq, v40_eq]
  rfl

/-- Stage 46: the loss of row `i`: the hinge of hardest positive − hardest negative + margin, kept where the row is
    valid and the zero word elsewhere. -/
theorem v46_eq (x : XT) (lab : LT) (i : Fin 8192) : val_main_v46 (F := Ideal) x lab (ix1 i) = rowLoss x lab i := by
  rw [val_main_v46_apply, val_main_v41_apply, v39_eq, v40_eq, val_main_v45_apply, val_main_v44_apply,
    val_main_v42_apply, v36_eq, v38_eq, val_main_v43_apply, val_main_call4_v0_apply, val_main_call5_v1_apply]
  unfold rowLoss lossR margin
  show Scalar.select _ (max (_ - _ + Ideal.ofBits .f32 0x3E99999A#32) (Ideal.ofBits .f32 0x00000000#32))
    (Ideal.ofBits .f32 0x00000000#32) = _
  rw [w0]

/-! ## The result -/

/-- Stage 48: the number of valid rows, a 32-bit sum of 0/1 words. -/
theorem v48_eq (lab : LT) (idx : S_.Idx) : val_main_v48 (F := Ideal) lab idx = countW lab := by
  unfold val_main_v48 countW
  refine (reduce_all _ _ _ _ _ idx).trans ?_
  refine Finset.fold_congr fun i _ => ?_
  rw [val_main_v47_apply, v41_eq]

/-- Stage 50: the sum of the row losses, from the zero word. -/
theorem v50_eq (x : XT) (lab : LT) (idx : S_.Idx) : val_main_v50 (F := Ideal) x lab idx = total x lab := by
  rw [val_main_v50_apply, sum_idx1]
  unfold total
  refine congrArg₂ (· + ·) rfl (Finset.sum_congr rfl fun i _ => v46_eq x lab i)

/-- The reference's result is the specification's: the sum of the row losses over the number of valid rows (at least
    one), or the zero word when no row is valid. -/
theorem ref_value (x : (⟨Cert.ReferenceIdeal.S8192x128, .f32⟩ : BufTy).Contents (Elt Ideal))
    (lab : (⟨Cert.ReferenceIdeal.S8192, .i32⟩ : BufTy).Contents (Elt Ideal)) :
    Cert.ReferenceIdeal.ReadP.val_main_v54 (F := Ideal) x lab = fun _ => TripletSpec.result x lab := by
  funext idx
  rw [val_main_v54_apply, val_main_v49_apply, val_main_v53_apply, val_main_v52_apply, val_main_v51_apply, v48_eq,
    v50_eq]
  rfl

end Cert.ReferenceIdeal.RefValue

end
-- ==== Proof.LibDotNT.lean ====
/-
  The matrix product whose right operand is contracted along its rows, on the extended reals, index by index.

  For a left operand `a : [M, K]` and a right operand `w : [N, K]` the entry (r, j) of `a · wᵀ` is the finite sum
  `∑ k, a (r, k) * w (j, k)`: row r of `a` against row j of `w`. A finite sum on the extended reals is a sum in a
  commutative monoid, so no order, grouping or tiling of it matters, and nothing here asks any entry to be finite.
  Both the vector unit's matrix product into a zero accumulator and the host's dot_general, with these dimension
  numbers, are this sum; a layer adds one bias entry per column, and two layers compose.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDotNT

open Idealize.ShloMosaic Idealize.ShloMosaic.ValueIdx

/-- Entry (r, j) of `a · wᵀ`: row r of `a : [M, K]` against row j of `w : [N, K]`. -/
def rowDot {M K N : ℕ} (a : (⟨2, ![M, K]⟩ : Shape).Idx → EReal) (w : (⟨2, ![N, K]⟩ : Shape).Idx → EReal) :
    (⟨2, ![M, N]⟩ : Shape).Idx → EReal :=
  fun i => ∑ k : Fin K, a (ix2 (i 0) k) * w (ix2 (i 1) k)

/-- The same at an index given by its coordinates. -/
theorem rowDot_ix2 {M K N : ℕ} (a : (⟨2, ![M, K]⟩ : Shape).Idx → EReal) (w : (⟨2, ![N, K]⟩ : Shape).Idx → EReal)
    (r : Fin M) (j : Fin N) : rowDot a w (ix2 r j) = ∑ k : Fin K, a (ix2 r k) * w (ix2 j k) := rfl

/-- An entry of the product reads one row of each operand: operands that agree on those rows give the same entry. -/
theorem rowDot_congr {M M' K N N' : ℕ} (a : (⟨2, ![M, K]⟩ : Shape).Idx → EReal) (w : (⟨2, ![N, K]⟩ : Shape).Idx → EReal)
    (a' : (⟨2, ![M', K]⟩ : Shape).Idx → EReal) (w' : (⟨2, ![N', K]⟩ : Shape).Idx → EReal)
    (r : Fin M) (j : Fin N) (r' : Fin M') (j' : Fin N')
    (ha : ∀ k : Fin K, a (ix2 r k) = a' (ix2 r' k)) (hw : ∀ k : Fin K, w (ix2 j k) = w' (ix2 j' k)) :
    rowDot a w (ix2 r j) = rowDot a' w' (ix2 r' j') := by
  rw [rowDot_ix2, rowDot_ix2]
  exact Finset.sum_congr rfl fun k _ => congrArg₂ (· * ·) (ha k) (hw k)

/-! ## The contraction index of an `[M, K] × [N, K]` product is `Fin K` -/

theorem tr_lhs0 (M K N : ℕ) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem tr_rhs0 (M K N : ℕ) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The sum over the product's contraction index, re-indexed by `Fin K`, is the row-against-row sum. -/
theorem tr_sum (M K N : ℕ) (x : (⟨2, ![M, K]⟩ : Shape).Idx → EReal) (w : (⟨2, ![N, K]⟩ : Shape).Idx → EReal)
    (i : (⟨2, ![M, N]⟩ : Shape).Idx) :
    ∑ q : (DotDims.transposedRhs M K N).contr.Idx,
        x ((DotDims.transposedRhs M K N).lhsIdx i q) * w ((DotDims.transposedRhs M K N).rhsIdx i q)
      = rowDot x w i := by
  unfold rowDot
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k)
      = ix2 (i 0) k :=
    funext fun a => Fin.ext (by
      match a with
      | ⟨0, _⟩ => exact tr_lhs0 M K N i _
      | ⟨1, _⟩ => exact ((DotDims.transposedRhs M K N).lhsIdx_val_of_single rfl i _).trans hk)
  have er : (DotDims.transposedRhs M K N).rhsIdx i ((contrEquiv1 (DotDims.transposedRhs M K N) K rfl rfl).symm k)
      = ix2 (i 1) k :=
    funext fun a => Fin.ext (by
      match a with
      | ⟨0, _⟩ => exact tr_rhs0 M K N i _
      | ⟨1, _⟩ => exact ((DotDims.transposedRhs M K N).rhsIdx_val_of_single rfl i _).trans hk)
  exact congrArg₂ (· * ·) (congrArg x el) (congrArg w er)

/-- A vector unit's matrix product with these dimension numbers into the zero accumulator, at an entry. -/
theorem matmul_tr {M K N : ℕ} {φ₁ φ₂ : FTy} (x : FVec Ideal ⟨2, ![M, K]⟩ φ₁) (w : FVec Ideal ⟨2, ![N, K]⟩ φ₂)
    (i : (⟨2, ![M, N]⟩ : Shape).Idx) :
    FloatOps.matmul (DotDims.transposedRhs M K N) none x w (constant (F := Ideal) ⟨2, ![M, N]⟩ .f32 0x00000000#32) i
      = rowDot x w i := by
  rw [Ideal.matmul_constant_zero_apply]
  exact tr_sum M K N x w i

/-- The host's dot_general of the same dimension numbers, at an entry. -/
theorem dotGeneral_tr {M K N : ℕ} (sched : HostSchedule) (x : (⟨2, ![M, K]⟩ : Shape).Idx → EReal)
    (w : (⟨2, ![N, K]⟩ : Shape).Idx → EReal) (i : (⟨2, ![M, N]⟩ : Shape).Idx) :
    FloatOps.dotGeneral (F := Ideal) (φ₁ := .f32) (φ₂ := .f32) (DotDims.transposedRhs M K N) none sched x w i
      = rowDot x w i := by
  rw [Ideal.dotGeneral_apply]
  exact tr_sum M K N x w i

/-! ## A layer, and two of them -/

/-- A layer `a · wᵀ + b`: the bias entry of column j added to every row's entry in that column. -/
def layer {M K N : ℕ} (a : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => rowDot a w i + b (ix1 (i 1))

theorem layer_ix2 {M K N : ℕ} (a : (⟨2, ![M, K]⟩ : Shape).Idx → EReal) (w : (⟨2, ![N, K]⟩ : Shape).Idx → EReal)
    (b : (⟨1, ![N]⟩ : Shape).Idx → EReal) (r : Fin M) (j : Fin N) :
    layer a w b (ix2 r j) = (∑ k : Fin K, a (ix2 r k) * w (ix2 j k)) + b (ix1 j) := rfl

/-- Two layers with no function between them: `(x · w₁ᵀ + b₁) · w₂ᵀ + b₂`. -/
def twoLayers {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) : (⟨2, ![B, M]⟩ : Shape).Idx → EReal :=
  layer (layer x w1 b1) w2 b2

/-- Entry (r, j) of two layers, written out: it reads row r of `x`, all of `w₁` and `b₁`, row j of `w₂` and entry j of `b₂`. -/
theorem twoLayers_ix2 {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) (r : Fin B) (j : Fin M) :
    twoLayers x w1 b1 w2 b2 (ix2 r j)
      = (∑ k : Fin K, ((∑ l : Fin M, x (ix2 r l) * w1 (ix2 k l)) + b1 (ix1 k)) * w2 (ix2 j k)) + b2 (ix1 j) := rfl

end Cert.LibDotNT

end
-- ==== Proof.KernelRow.lean ====
/-
  The kernel body's arithmetic, read at a coordinate, on the extended reals.

  At a grid point the body holds the whole table `x0 : [8192, 128]`, the point's 128 rows of it `v5 : [128, 128]`, the
  table of squared norms `x1 : [1, 8192]`, all labels as a row `x2 : [1, 8192]` and the point's labels as a column
  `x3 : [128, 1]`. For a row r of the point and a column j:
    - the clamped squared distance is max(∑ₖ v5(r,k)² + x1(0,j) − 2·∑ₖ v5(r,k)·x0(j,k), 0);
    - "same label" compares x3(r,0) with x2(0,j); "same position" compares the column number j with the row number
      r + 128·(point), both as 32-bit words; a positive is the one and not the other, a negative is not the one;
    - the row's masked maximum, minimum and the two indicator maxima are folds over the 8192 columns;
    - the stored loss and the stored validity flag of row r are the selections that RowLaw.lean names `lossK` and
      the conjunction of two `anyK`.
-/
import proofs.«132673_j7172595384725_2_alg».proof.Proof.Gen.KernelIdeal.Skeleton
import proofs.«132673_j7172595384725_2_alg».proof.Proof.Spec
import proofs.«132673_j7172595384725_2_alg».proof.Proof.LibDotNT
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Row

open Cert.KernelIdeal Cert.KernelIdeal.Gen Idealize.ShloMosaic Idealize.ShloMosaic.ValueIdx TripletRows Cert.LibSoftmaxRow

/-! ## Two readings the library files do not have -/

/-- The vector unit's minimum over a row, from the accumulator's value. -/
theorem multiReduction_min_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.minimumf.neutral .f32 hφ) (r : Fin a) :
    multiReduction .minimumf [1] ⟨1, ![a]⟩ src acc h hφ hacc (ix1 r)
      = (Finset.univ : Finset (Fin n)).fold min (Ideal.ofBits .f32 acc) fun k : Fin n => src (ix2 r k) := by
  rw [multiReduction_minimumf_eq_fold]
  refine (h.fold_filter_drop_single FloatOps.minimumf (FloatOps.ofBits .f32 acc) src (ix1 r)).trans ?_
  have hf : (src ∘ h.lift (ix1 r)) = fun k : Fin n => src (ix2 r k) :=
    funext fun k => congrArg src (lift_row2 h r k)
  exact congrArg (fun f => Finset.fold min (Ideal.ofBits .f32 acc) f (Finset.univ : Finset (Fin n))) hf

/-- An `[a, 1]` column cast to `[a]` reads, at `i`, the column's entry of row `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-! ## The vector unit's row reductions, with the accumulator words the body carries -/

theorem add_row_w {a n : ℕ} (src : FVec Ideal ⟨2, ![a, n]⟩ .f32)
    (h : (⟨2, ![a, n]⟩ : Shape).Reduces [1] (⟨1, ![a]⟩ : Shape)) (hφ : FKind.Formats .f32)
    (hacc : (0x00000000#32 : BitVec 32) = 0x00000000#32) (r : Fin a) :
    multiReduction .add [1] ⟨1, ![a]⟩ src 0x00000000#32 h hφ hacc (ix1 r) = ∑ k : Fin n, src (ix2 r k) :=
  multiReduction_add_row src 0x00000000#32 h hφ hacc r

theorem max_row_w {a n : ℕ} (src : FVec Ideal ⟨2, ![a, n]⟩ .f32)
    (h : (⟨2, ![a, n]⟩ : Shape).Reduces [1] (⟨1, ![a]⟩ : Shape)) (hφ : FKind.Formats .f32)
    (hacc : (0xFF800000#32 : BitVec 32) = 0xFF800000#32) (r : Fin a) :
    multiReduction .maximumf [1] ⟨1, ![a]⟩ src 0xFF800000#32 h hφ hacc (ix1 r)
      = (Finset.univ : Finset (Fin n)).fold max ⊥ fun k : Fin n => src (ix2 r k) :=
  (multiReduction_max_row src 0xFF800000#32 h hφ hacc r).trans (by unfold rowMax; rw [wBot])

theorem min_row_w {a n : ℕ} (src : FVec Ideal ⟨2, ![a, n]⟩ .f32)
    (h : (⟨2, ![a, n]⟩ : Shape).Reduces [1] (⟨1, ![a]⟩ : Shape)) (hφ : FKind.Formats .f32)
    (hacc : (0x7F800000#32 : BitVec 32) = 0x7F800000#32) (r : Fin a) :
    multiReduction .minimumf [1] ⟨1, ![a]⟩ src 0x7F800000#32 h hφ hacc (ix1 r)
      = (Finset.univ : Finset (Fin n)).fold min ⊤ fun k : Fin n => src (ix2 r k) :=
  (multiReduction_min_row src 0x7F800000#32 h hφ hacc r).trans (by rw [wTop])

/-! ## The squared distances -/

/-- Row r of the point against column j: the clamped squared distance as the body computes it. -/
def sqK (x0 : Vec Ideal S8192x128 .bf16) (v5 : Vec Ideal S128x128 .bf16) (x1 : Vec Ideal S1x8192 .f32)
    (r : Fin 128) (j : Fin 8192) : EReal :=
  max ((∑ k : Fin 128, v5 (ix2 r k) * v5 (ix2 r k)) + x1 (ix2 (0 : Fin 1) j)
      - Ideal.ofBits .f32 0x40000000#32 * ∑ k : Fin 128, v5 (ix2 r k) * x0 (ix2 j k)) 0

theorem dot_eq : dot_S128x128_S8192x128_S128x8192_1_1_0_0_n_n = DotDims.transposedRhs 128 128 8192 := rfl

/-- The vector unit's matrix product against the transposed right operand into the zero accumulator, at an entry: row
    against row. -/
theorem matmul_tr_w {M K N : ℕ} {φ₁ φ₂ : FTy} (x : FVec Ideal ⟨2, ![M, K]⟩ φ₁) (w : FVec Ideal ⟨2, ![N, K]⟩ φ₂)
    (i : (⟨2, ![M, N]⟩ : Shape).Idx) :
    matmul (DotDims.transposedRhs M K N) none x w (constant (F := Ideal) ⟨2, ![M, N]⟩ .f32 0x00000000#32) i
      = Cert.LibDotNT.rowDot x w i :=
  Cert.LibDotNT.matmul_tr x w i

set_option maxHeartbeats 100000 in
theorem pay4_apply (x0 : Vec Ideal S8192x128 .bf16) (v5 : Vec Ideal S128x128 .bf16) (x1 : Vec Ideal S1x8192 .f32)
    (r : Fin 128) (j : Fin 8192) :
    k0_pay4 (F := Ideal) x0 v5 x1 (ix2 r j) = sqK x0 v5 x1 r j := by
  unfold k0_pay4 sqK
  simp only [shapeCast_self, dot_eq]
  simp only [maximumf, subf, addf, mulf, broadcast]
  rw [broadcastTo_a1_ab_apply, shapeCast_a_a1_apply, add_row_w, broadcastTo_1b_ab_apply,
    matmul_tr_w, Cert.LibDotNT.rowDot_ix2]
  simp only [extf, mulf, Ideal.extf_def, Ideal.mulf_def, Ideal.addf_def, Ideal.subf_def, Ideal.maximumf_def, Ideal.ofBits_def, w0]

/-! ## The masks -/

/-- Row r of the point carries column j's label. -/
def sameK (x2 : Vec Ideal S1x8192 .i32) (x3 : Vec Ideal S128x1 .i32) (r : Fin 128) (j : Fin 8192) : BitVec 1 :=
  IntOp.cmpi .eq (x3 (ix2 r (0 : Fin 1))) (x2 (ix2 (0 : Fin 1) j))

/-- Column j is row r's own position: the column number against the row number plus 128 times the point's number. -/
def eyeK (i : grid0.Coords) (r : Fin 128) (j : Fin 8192) : BitVec 1 :=
  IntOp.cmpi .eq (BitVec.ofNat 32 j.val)
    (IntOp.addi (BitVec.ofNat 32 r.val) (Scalar.muli (BitVec.ofNat 32 (i 0).val) 128#32))

set_option maxHeartbeats 100000 in
theorem pay5_apply (x2 : Vec Ideal S1x8192 .i32) (x3 : Vec Ideal S128x1 .i32) (r : Fin 128) (j : Fin 8192) :
    k0_pay5 (F := Ideal) x3 x2 (ix2 r j) = sameK x2 x3 r j := by
  unfold k0_pay5 sameK
  simp only [shapeCast_self]
  simp only [cmpi]
  rw [broadcastTo_a1_ab_apply, broadcastTo_1b_ab_apply]

set_option maxHeartbeats 100000 in
theorem pay6_apply (i : grid0.Coords) (x2 : Vec Ideal S1x8192 .i32) (x3 : Vec Ideal S128x1 .i32) (r : Fin 128) (j : Fin 8192) :
    k0_pay6 (F := Ideal) i x3 x2 (ix2 r j) = IntOp.andi (sameK x2 x3 r j) (IntOp.xori (eyeK i r j) 1#1) := by
  unfold k0_pay6 eyeK
  simp only [andi, xori, cmpi, constantI]
  rw [pay5_apply, iota_single_apply, broadcastTo_a1_ab_apply]
  simp only [addi, broadcast]
  rw [iota_single_apply]

set_option maxHeartbeats 100000 in
theorem pay7_apply (x2 : Vec Ideal S1x8192 .i32) (x3 : Vec Ideal S128x1 .i32) (r : Fin 128) (j : Fin 8192) :
    k0_pay7 (F := Ideal) x3 x2 (ix2 r j) = IntOp.xori (sameK x2 x3 r j) 1#1 := by
  unfold k0_pay7
  simp only [xori, constantI]
  rw [pay5_apply]

/-! ## The row's folds -/

set_option maxHeartbeats 100000 in
theorem pay8_apply (i : grid0.Coords) (x0 : Vec Ideal S8192x128 .bf16) (v5 : Vec Ideal S128x128 .bf16) (x1 : Vec Ideal S1x8192 .f32)
    (x2 : Vec Ideal S1x8192 .i32) (x3 : Vec Ideal S128x1 .i32) (r : Fin 128) :
    k0_pay8 (F := Ideal) i x0 v5 x1 x3 x2 (ix1 r)
      = (Finset.univ : Finset (Fin 8192)).fold max ⊥ fun j =>
          Scalar.select (k0_pay6 (F := Ideal) i x3 x2 (ix2 r j)) (k0_pay4 (F := Ideal) x0 v5 x1 (ix2 r j)) ⊥ := by
  unfold k0_pay8
  rw [max_row_w]
  refine Finset.fold_congr fun j _ => ?_
  simp only [select, broadcast, Ideal.ofBits_def, wBot]

set_option maxHeartbeats 100000 in
/-- The validity bit of row r: both indicator maxima exceed zero. -/
theorem pay1_apply (v36 v37 : IVec S128x8192 1) (r : Fin 128) :
    k0_pay1 (F := Ideal) v36 v37 (ix2 r (0 : Fin 1))
      = IntOp.andi (anyK fun j : Fin 8192 => v36 (ix2 r j)) (anyK fun j : Fin 8192 => v37 (ix2 r j)) := by
  unfold k0_pay1 anyK
  simp only [andi]
  rw [shapeCast_a_a1_apply, shapeCast_a_a1_apply, cmpf_apply, cmpf_apply, max_row_w, max_row_w]
  have e1 : ∀ v : IVec S128x8192 1,
      (fun k : Fin 8192 => select v (broadcast S128x8192 (Scalar.ofBits (F := Ideal) .f32 0x3F800000#32))
          (broadcast S128x8192 (Scalar.ofBits (F := Ideal) .f32 0x00000000#32)) (ix2 r k))
        = fun k : Fin 8192 => Scalar.select (v (ix2 r k)) (1 : EReal) 0 := fun v => funext fun k => by
    show Scalar.select (v (ix2 r k)) (Ideal.ofBits .f32 0x3F800000#32) (Ideal.ofBits .f32 0x00000000#32) = _
    rw [w0, w1]
  rw [e1, e1]
  show IntOp.andi (Ideal.cmp .ogt _ (Ideal.ofBits .f32 0x00000000#32)) (Ideal.cmp .ogt _ (Ideal.ofBits .f32 0x00000000#32)) = _
  rw [w0]

/-- A square root at an index is the square root of the element. -/
theorem sqrt_apply {s : Shape} {φ : FTy} (a : FVec Ideal s φ) (i : s.Idx) : sqrt a i = Ideal.sqrt (a i) := rfl

set_option maxHeartbeats 100000 in
/-- The stored loss of row r, over the body's intermediate arrays. -/
theorem pay2_apply (v21 : FVec Ideal S128x8192 .f32) (v36 v37 : IVec S128x8192 1) (v40 : FVec Ideal S128 .f32) (r : Fin 128) :
    k0_pay2 (F := Ideal) v21 v36 v37 v40 (ix1 r)
      = Scalar.select (k0_pay1 (F := Ideal) v36 v37 (ix2 r (0 : Fin 1)))
          (max (Ideal.sqrt (max (v40 (ix1 r)) 0)
              - Ideal.sqrt (max ((Finset.univ : Finset (Fin 8192)).fold min ⊤ fun j =>
                  Scalar.select (v37 (ix2 r j)) (v21 (ix2 r j)) ⊤) 0)
              + Ideal.ofBits .f32 0x3E99999A#32) 0) 0 := by
  unfold k0_pay2
  generalize k0_pay1 (F := Ideal) v36 v37 = p1
  have e : (fun k : Fin 8192 => select v37 v21 (broadcast S128x8192 (Scalar.ofBits (F := Ideal) .f32 0x7F800000#32)) (ix2 r k))
      = fun k : Fin 8192 => Scalar.select (v37 (ix2 r k)) (v21 (ix2 r k)) ⊤ := funext fun k => by
    show Scalar.select (v37 (ix2 r k)) (v21 (ix2 r k)) (Ideal.ofBits .f32 0x7F800000#32) = _
    rw [wTop]
  rw [shapeCast_a1_a_apply, select_apply, maximumf_apply, addf_apply, subf_apply, sqrt_apply, sqrt_apply,
    maximumf_apply, maximumf_apply, shapeCast_a_a1_apply, shapeCast_a_a1_apply, min_row_w, broadcast_apply,
    broadcast_apply, e, Ideal.ofBits_def, Ideal.ofBits_def, w0]

set_option maxHeartbeats 100000 in
/-- The stored validity flag of row r: the validity bit widened and read as a number. -/
theorem pay3_apply (v36 v37 : IVec S128x8192 1) (r : Fin 128) :
    k0_pay3 (F := Ideal) v36 v37 (ix1 r)
      = ((((k0_pay1 (F := Ideal) v36 v37 (ix2 r (0 : Fin 1))).setWidth 32).toInt : ℝ) : EReal) := by
  unfold k0_pay3
  rw [shapeCast_a1_a_apply]
  generalize k0_pay1 (F := Ideal) v36 v37 = p1
  rfl

end Cert.KernelIdeal.Row

end
-- ==== Proof.KernelPoint.lean ====
/-
  One row of one grid point of the kernel is one row of the specification.

  Suppose that at a grid point numbered p the body's inputs are what the launch stages: the whole table x, the table
  of squared norms (column j holding ‖x_j‖², summed from the zero word), all labels as a row, and the labels of rows
  128·p … 128·p + 127 as a column; and that the 128 rows the body loads at its computed offset are rows 128·p + r of x.
  Then for row r of the point, writing g = 128·p + r:
    - the body's squared distance to column j is the specification's sq x g j (the body sums the anchor's squared
      norm without the leading zero word, which adding zero does not change);
    - its positive and negative masks are the specification's: the labels compared are those of g and j, and the
      column number j equals the row number r + 128·p as 32-bit words exactly when j = g, both being below 2³²;
      a one-bit word xor 1 is its complement;
    - so the stored loss is lossK of the specification's row, which the row law turns into the specification's
      rowLoss, and the stored flag is the specification's rowValid read as a number.
-/
import proofs.«132673_j7172595384725_2_alg».proof.Proof.KernelRow

noncomputable section

namespace Cert.KernelIdeal.Row

open Cert.KernelIdeal Cert.KernelIdeal.Gen Idealize.ShloMosaic Idealize.ShloMosaic.ValueIdx TripletRows TripletSpec

/-- The 128 rows of the table the body loads at the point's computed offset. -/
def rowsAt {F : FTy → Type} [FloatOps F] (i : grid0.Coords) (x0 : Vec F S8192x128 .bf16) : Vec F S128x128 .bf16 :=
  View.ld x0 (Rect.unit (s := S8192x128) (k0_off1 i) S128x128.size (k0_off1_inb i))

/-- Global row number of row r of point p. -/
def grow (p : ℕ) (hp : p < 64) (r : Fin 128) : Fin 8192 := ⟨128 * p + r.val, by have := r.isLt; omega⟩

theorem xor_one (z : BitVec 1) : IntOp.xori z 1#1 = ~~~z := by
  revert z; unfold IntOp.xori; decide

theorem cmpi_eq_comm (a b : BitVec 32) : IntOp.cmpi .eq a b = IntOp.cmpi .eq b a := by
  show BitVec.ofBool (a == b) = BitVec.ofBool (b == a)
  congr 1
  rw [Bool.eq_iff_iff]
  simp only [beq_iff_eq]
  exact eq_comm

theorem word_row (p : ℕ) (r : ℕ) :
    IntOp.addi (BitVec.ofNat 32 r) (Scalar.muli (BitVec.ofNat 32 p) 128#32) = BitVec.ofNat 32 (128 * p + r) := by
  show BitVec.ofNat 32 r + BitVec.ofNat 32 p * BitVec.ofNat 32 128 = _
  rw [← BitVec.ofNat_mul, ← BitVec.ofNat_add]
  congr 1
  omega

section Point

variable (x : SX.Idx → EReal) (lab : SL.Idx → BitVec 32)
variable (i : grid0.Coords) (p : ℕ) (hp : p < 64) (hi : (i 0).val = p)
variable (x0 : Vec Ideal S8192x128 .bf16) (v5 : Vec Ideal S128x128 .bf16) (x1 : Vec Ideal S1x8192 .f32)
  (x2 : Vec Ideal S1x8192 .i32) (x3 : Vec Ideal S128x1 .i32)
variable (h0 : ∀ (j : Fin 8192) (k : Fin 128), x0 (ix2 j k) = x (ix2 j k))
  (h5 : ∀ (r : Fin 128) (k : Fin 128), v5 (ix2 r k) = x (ix2 (grow p hp r) k))
  (h1 : ∀ j : Fin 8192, x1 (ix2 (0 : Fin 1) j) = norm2 x j)
  (h2 : ∀ j : Fin 8192, x2 (ix2 (0 : Fin 1) j) = lab (ix1 j))
  (h3 : ∀ r : Fin 128, x3 (ix2 r (0 : Fin 1)) = lab (ix1 (grow p hp r)))

include h0 h5 h1 in
theorem sqK_eq (r : Fin 128) (j : Fin 8192) : sqK x0 v5 x1 r j = TripletSpec.sq x (grow p hp r) j := by
  unfold sqK TripletSpec.sq norm2 cross
  rw [h1 j]
  simp only [h5, h0]
  unfold norm2
  simp only [w0, zero_add]

include h2 h3 in
theorem sameK_eq (r : Fin 128) (j : Fin 8192) : sameK x2 x3 r j = same lab (grow p hp r) j := by
  unfold sameK same
  rw [h3 r, h2 j]

include hi in
theorem eyeK_eq (r : Fin 128) (j : Fin 8192) : eyeK i r j = eye (grow p hp r) j := by
  unfold eyeK eye grow
  rw [hi, word_row, cmpi_eq_comm]

include hi h2 h3 in
theorem pos_eq (r : Fin 128) (j : Fin 8192) : k0_pay6 (F := Ideal) i x3 x2 (ix2 r j) = posM lab (grow p hp r) j := by
  rw [pay6_apply, xor_one, sameK_eq lab p hp x2 x3 h2 h3, eyeK_eq i p hp hi]
  rfl

include h2 h3 in
theorem neg_eq (r : Fin 128) (j : Fin 8192) : k0_pay7 (F := Ideal) x3 x2 (ix2 r j) = negM lab (grow p hp r) j := by
  rw [pay7_apply, xor_one, sameK_eq lab p hp x2 x3 h2 h3]
  rfl

include hi h0 h5 h1 h2 h3 in
/-- The stored loss of row r of the point is the specification's loss of row 128·p + r. -/
theorem loss_eq (r : Fin 128) :
    k0_pay2 (F := Ideal) (k0_pay4 x0 v5 x1) (k0_pay6 i x3 x2) (k0_pay7 x3 x2) (k0_pay8 i x0 v5 x1 x3 x2) (ix1 r)
      = rowLoss x lab (grow p hp r) := by
  rw [pay2_apply, pay1_apply, pay8_apply]
  have hK : ∀ (s : Fin 8192 → EReal) (P N : Fin 8192 → BitVec 1),
      Scalar.select (IntOp.andi (anyK P) (anyK N))
        (max (Ideal.sqrt (max ((Finset.univ : Finset (Fin 8192)).fold max ⊥ fun j => Scalar.select (P j) (s j) ⊥) 0)
            - Ideal.sqrt (max ((Finset.univ : Finset (Fin 8192)).fold min ⊤ fun j => Scalar.select (N j) (s j) ⊤) 0)
            + Ideal.ofBits .f32 0x3E99999A#32) 0) 0 = lossK margin s P N := fun _ _ _ => rfl
  refine (hK (fun j => k0_pay4 (F := Ideal) x0 v5 x1 (ix2 r j)) (fun j => k0_pay6 (F := Ideal) i x3 x2 (ix2 r j))
    (fun j => k0_pay7 (F := Ideal) x3 x2 (ix2 r j))).trans ?_
  have es : (fun j : Fin 8192 => k0_pay4 (F := Ideal) x0 v5 x1 (ix2 r j)) = TripletSpec.sq x (grow p hp r) :=
    funext fun j => (pay4_apply x0 v5 x1 r j).trans (sqK_eq x p hp x0 v5 x1 h0 h5 h1 r j)
  have eP : (fun j : Fin 8192 => k0_pay6 (F := Ideal) i x3 x2 (ix2 r j)) = posM lab (grow p hp r) :=
    funext fun j => pos_eq lab i p hp hi x2 x3 h2 h3 r j
  have eN : (fun j : Fin 8192 => k0_pay7 (F := Ideal) x3 x2 (ix2 r j)) = negM lab (grow p hp r) :=
    funext fun j => neg_eq lab p hp x2 x3 h2 h3 r j
  rw [es, eP, eN, lossK_eq_lossR margin _ (TripletSpec.sq_nonneg x _) _ _]
  rfl

include hi h2 h3 in
/-- The stored flag of row r of the point is the specification's validity of row 128·p + r, read as a number. -/
theorem flag_eq (r : Fin 128) :
    k0_pay3 (F := Ideal) (k0_pay6 i x3 x2) (k0_pay7 x3 x2) (ix1 r)
      = ((((rowValid lab (grow p hp r)).setWidth 32).toInt : ℝ) : EReal) := by
  rw [pay3_apply, pay1_apply]
  have eP : (fun j : Fin 8192 => k0_pay6 (F := Ideal) i x3 x2 (ix2 r j)) = posM lab (grow p hp r) :=
    funext fun j => pos_eq lab i p hp hi x2 x3 h2 h3 r j
  have eN : (fun j : Fin 8192 => k0_pay7 (F := Ideal) x3 x2 (ix2 r j)) = negM lab (grow p hp r) :=
    funext fun j => neg_eq lab p hp x2 x3 h2 h3 r j
  rw [eP, eN, anyK_eq_anyR, anyK_eq_anyR]
  rfl

end Point

end Cert.KernelIdeal.Row

end
-- ==== Proof.KernelBlocks.lean ====
/-
  The kernel's two output arrays after the run.

  At grid point t the pipeline stages the whole table of embeddings (rounded to bf16, the identity on the extended reals),
  the whole row of squared norms, the whole row of labels and rows 128·t … 128·t + 127 of the column of labels; the body
  stores one block of 128 losses and one block of 128 validity flags, which the pipeline writes back to rows
  128·t … 128·t + 127 of the two [8192] results. The 64 blocks cover the results, so each result is one function of the
  arguments: row g holds the specification's loss, and its validity read as a number.
-/
import proofs.«132673_j7172595384725_2_alg».proof.Proof.Gen.KernelIdeal.Frame
import proofs.«132673_j7172595384725_2_alg».proof.Proof.KernelPoint
import Idealize.ShloMosaic.Lib.Pipeline.Value
import Idealize.ShloMosaic.Lib.StableHlo.Run
import Idealize.ShloMosaic.Lib.Tactic
import Idealize.ShloMosaic.Lib.ValueLayout

noncomputable section

namespace Cert.KernelIdeal.Blocks

open Cert.KernelIdeal Cert.KernelIdeal.Gen Cert.KernelIdeal.Row
open Idealize.ShloMosaic Idealize.ShloMosaic.TcCoe Idealize.SL.Sem Idealize.ShloMosaic.Tactic Idealize.ShloMosaic.ValueIdx
open Idealize.ShloMosaic.Pipeline (Dat)
open TripletRows TripletSpec

theorem hz1 : (![0] : Fin 1 → Nat) = fun _ => 0 := funext fun a => by fin_cases a; rfl
theorem hz2 : (![0, 0] : Fin 2 → Nat) = fun _ => 0 := funext fun a => by fin_cases a <;> rfl

/-! ## What the body's two stores leave -/

section Pieces
variable {F : FTy → Type} [FloatOps F]

/-- The loss block: the one whole-block store's value, its loads read as the staged inputs. -/
theorem out4_eq (c : Dev nD) (i : grid0.Coords) (arg1 : Memref sig .tc .vmem S8192x128 .bf16) (harg1 : arg1.IsWhole) (arg2 : Memref sig .tc .vmem S1x8192 .f32) (harg2 : arg2.IsWhole) (arg3 : Memref sig .tc .vmem S1x8192 .i32) (harg3 : arg3.IsWhole) (arg4 : Memref sig .tc .vmem S128x1 .i32) (harg4 : arg4.IsWhole) (arg5 : Memref sig .tc .vmem S128 .f32) (harg5 : arg5.IsWhole) (arg6 : Memref sig .tc .vmem S128 .f32) (harg6 : arg6.IsWhole)
    (x0 : Vec F S8192x128 .bf16) (x1 : Vec F S1x8192 .f32) (x2 : Vec F S1x8192 .i32) (x3 : Vec F S128x1 .i32) :
    out0_A_4 c i arg1 harg1 arg2 harg2 arg3 harg3 arg4 harg4 arg5 harg5 arg6 harg6 x0 x1 x2 x3
      = k0_pay2 (k0_pay4 x0 (rowsAt i x0) x1) (k0_pay6 i x3 x2) (k0_pay7 x3 x2) (k0_pay8 i x0 (rowsAt i x0) x1 x3 x2) := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_words
  rw [View.canon_unit_zero hz1]
  simp only [View.readAt_eq_ld, harg1.read_unread, harg2.read_unread, harg3.read_unread, harg4.read_unread,
    View.ld_unit_zero (S := S8192x128) hz2, View.ld_unit_zero (S := S1x8192) hz2, View.ld_unit_zero (S := S128x1) hz2]
  rfl

/-- The flag block, likewise. -/
theorem out5_eq (c : Dev nD) (i : grid0.Coords) (arg1 : Memref sig .tc .vmem S8192x128 .bf16) (harg1 : arg1.IsWhole) (arg2 : Memref sig .tc .vmem S1x8192 .f32) (harg2 : arg2.IsWhole) (arg3 : Memref sig .tc .vmem S1x8192 .i32) (harg3 : arg3.IsWhole) (arg4 : Memref sig .tc .vmem S128x1 .i32) (harg4 : arg4.IsWhole) (arg5 : Memref sig .tc .vmem S128 .f32) (harg5 : arg5.IsWhole) (arg6 : Memref sig .tc .vmem S128 .f32) (harg6 : arg6.IsWhole)
    (x0 : Vec F S8192x128 .bf16) (x1 : Vec F S1x8192 .f32) (x2 : Vec F S1x8192 .i32) (x3 : Vec F S128x1 .i32) :
    out0_A_5 c i arg1 harg1 arg2 harg2 arg3 harg3 arg4 harg4 arg5 harg5 arg6 harg6 x0 x1 x2 x3 = k0_pay3 (F := F) (k0_pay6 i x3 x2) (k0_pay7 x3 x2) := by
  unfold out0_A_5
  rw [View.read_writes_eq_canon _ _ _ (cover0_A_5 c i arg1 harg1 arg2 harg2 arg3 harg3 arg4 harg4 arg5 harg5 arg6 harg6 x0 x1 x2 x3)]
  unfold kernelRun0_A
  dsimp only
  sl_unfold_words
  rw [View.canon_unit_zero hz1]
  simp only [View.readAt_eq_ld, harg3.read_unread, harg4.read_unread,
    View.ld_unit_zero (S := S1x8192) hz2, View.ld_unit_zero (S := S128x1) hz2]

end Pieces

variable (m : (ℓ : Loc nD τ sig) → Buf (Elt Ideal) ℓ) (ρ : Dev nD → PrngReg)

/-- The embeddings and the labels as launched. -/
abbrev xOf (c : Dev nD) : SX.Idx → EReal := m ((c : Thread nD τ).loc main_arg0)
abbrev labOf (c : Dev nD) : SL.Idx → BitVec 32 := m ((c : Thread nD τ).loc main_arg1)

/-! ## The arrays the region finds -/

theorem V_v2 (c : Dev nD) (idx : S8192x128.Idx) : V m c main_v2 idx = xOf m c idx := by
  have h : @Eq (S8192x128.Idx → EReal) (V m c main_v2)
      (truncf (F := Ideal) .bf16 (xOf m c : FVec Ideal S8192x128 .f32) bitsLt_bf16_f32) := by
    show StableHlo.after hostOps0 (fun b => m (c, b)) (Proc.devRef .tc main_v2) = _
    after_results
  exact congrFun h idx

theorem V_v5 (c : Dev nD) : @Eq (S1x8192.Idx → EReal) (V m c main_v5)
    (shapeCast S1x8192 (Host.reduceAdd (F := Ideal) (mulf (xOf m c) (xOf m c)) (constant (F := Ideal) S_ .f32 0x00000000#32)
        reducesTo_S8192x128_S8192_d1 h_S_) shapeCasts_S8192_S1x8192) := by
  show StableHlo.after hostOps0 (fun b => m (c, b)) (Proc.devRef .tc main_v5) = _
  after_results; rfl

theorem V_v0 (c : Dev nD) : @Eq (S1x8192.Idx → BitVec 32) (V m c main_v0) (shapeCast S1x8192 (labOf m c) shapeCasts_S8192_S1x8192) := by
  show StableHlo.after hostOps0 (fun b => m (c, b)) (Proc.devRef .tc main_v0) = _
  after_results; rfl

theorem V_v1 (c : Dev nD) : @Eq (S8192x1.Idx → BitVec 32) (V m c main_v1) (shapeCast S8192x1 (labOf m c) shapeCasts_S8192_S8192x1) := by
  show StableHlo.after hostOps0 (fun b => m (c, b)) (Proc.devRef .tc main_v1) = _
  after_results; rfl

/-! ## The printed index maps, decided once over the 64 points -/

theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 1) = t.val ∧ win0_5.index t (0 : Fin 1) = t.val
    ∧ ((grid0.coords t) 0).val = t.val :=
  (by decide +kernel : ∀ t : Fin grid0.N, _)

theorem t_lt (t : Fin cfg0.N) : t.val < 64 := by
  have h := t.isLt
  have hN : cfg0.N = 64 := N_0
  omega

/-! ## The staged blocks, read at a coordinate -/

theorem blk0_apply (c : Dev nD) (t : Fin cfg0.N) (j : Fin 8192) (k : Fin 128) :
    (iblk m c 0 t : Vec Ideal S8192x128 .bf16) (ix2 j k) = xOf m c (ix2 j k) := by
  obtain ⟨e0, e1, -⟩ := idx_facts t
  unfold iblk
  rw [View.read_apply]
  show V m c main_v2 (((cfg0.win 0).blk t).view.emb (ix2 j k)) = _
  rw [V_v2]
  show xOf m c (((cfg0.win 0).blk t).view.emb (ix2 j k)) = _
  refine congrArg (xOf m c) (funext fun a => Fin.ext ?_)
  match a with
  | ⟨0, _⟩ => show win0_0.index t (0 : Fin 2) * 8192 + 1 * j.val = j.val; rw [e0]; omega
  | ⟨1, _⟩ => show win0_0.index t (1 : Fin 2) * 128 + 1 * k.val = k.val; rw [e1]; omega

theorem rows_apply (c : Dev nD) (t : Fin cfg0.N) (r : Fin 128) (k : Fin 128) :
    rowsAt (grid0.coords t) (iblk m c 0 t : Vec Ideal S8192x128 .bf16) (ix2 r k) = xOf m c (ix2 (grow t.val (t_lt t) r) k) := by
  obtain ⟨-, -, -, -, -, -, -, -, -, -, eg⟩ := idx_facts t
  have hr := r.isLt
  have ht := t_lt t
  have hoff : k0_off1 (grid0.coords t) = ![128 * t.val, 0] := by rw [k0_off1_eq, eg]
  have hidx : (Rect.unit (s := S8192x128) (k0_off1 (grid0.coords t)) S128x128.size (k0_off1_inb (grid0.coords t))).emb (ix2 r k)
      = ix2 (⟨128 * t.val + r.val, by omega⟩ : Fin 8192) k := by
    funext a; apply Fin.ext
    match a with
    | ⟨0, _⟩ => show k0_off1 (grid0.coords t) 0 + 1 * r.val = 128 * t.val + r.val; rw [hoff]; show 128 * t.val + 1 * r.val = _; omega
    | ⟨1, _⟩ => show k0_off1 (grid0.coords t) 1 + 1 * k.val = k.val; rw [hoff]; show 0 + 1 * k.val = _; omega
  show (iblk m c 0 t : Vec Ideal S8192x128 .bf16) ((Rect.unit (s := S8192x128) (k0_off1 (grid0.coords t)) S128x128.size (k0_off1_inb (grid0.coords t))).emb (ix2 r k)) = _
  rw [hidx, blk0_apply]
  rfl

theorem blk1_apply (c : Dev nD) (t : Fin cfg0.N) (j : Fin 8192) :
    (iblk m c 1 t : Vec Ideal S1x8192 .f32) (ix2 (0 : Fin 1) j) = norm2 (xOf m c) j := by
  obtain ⟨-, -, e0, e1, -⟩ := idx_facts t
  unfold iblk
  rw [View.read_apply]
  show V m c main_v5 (((cfg0.win 1).blk t).view.emb (ix2 (0 : Fin 1) j)) = _
  have he : ((cfg0.win 1).blk t).view.emb (ix2 (0 : Fin 1) j) = ix2 (0 : Fin 1) j := by
    funext a; apply Fin.ext
    match a with
    | ⟨0, _⟩ => show win0_1.index t (0 : Fin 2) * 1 + 1 * 0 = 0; rw [e0]
    | ⟨1, _⟩ => show win0_1.index t (1 : Fin 2) * 8192 + 1 * j.val = j.val; rw [e1]; omega
  rw [he, V_v5, shapeCast_a_1a_apply]
  simp only [Host.reduceAdd, Ideal.hostReduceAdd_def]
  rw [Ideal.hostReduceAdd_single reducesTo_S8192x128_S8192_d1 (by decide)]
  unfold norm2
  refine congrArg₂ (· + ·) rfl (Finset.sum_congr rfl fun k _ => ?_)
  have hl : (by decide : S8192x128.Reduces [1] S8192).lift (ix1 j) k = ix2 j (⟨k.val, k.isLt⟩ : Fin 128) :=
    Cert.LibSoftmaxRow.lift_row2 _ j k
  rw [hl]
  rfl

theorem blk2_apply (c : Dev nD) (t : Fin cfg0.N) (j : Fin 8192) :
    (iblk m c 2 t : Vec Ideal S1x8192 .i32) (ix2 (0 : Fin 1) j) = labOf m c (ix1 j) := by
  obtain ⟨-, -, -, -, e0, e1, -⟩ := idx_facts t
  unfold iblk
  rw [View.read_apply]
  show V m c main_v0 (((cfg0.win 2).blk t).view.emb (ix2 (0 : Fin 1) j)) = _
  have he : ((cfg0.win 2).blk t).view.emb (ix2 (0 : Fin 1) j) = ix2 (0 : Fin 1) j := by
    funext a; apply Fin.ext
    match a with
    | ⟨0, _⟩ => show win0_2.index t (0 : Fin 2) * 1 + 1 * 0 = 0; rw [e0]
    | ⟨1, _⟩ => show win0_2.index t (1 : Fin 2) * 8192 + 1 * j.val = j.val; rw [e1]; omega
  rw [he, V_v0, shapeCast_a_1a_apply]

theorem blk3_apply (c : Dev nD) (t : Fin cfg0.N) (r : Fin 128) :
    (iblk m c 3 t : Vec Ideal S128x1 .i32) (ix2 r (0 : Fin 1)) = labOf m c (ix1 (grow t.val (t_lt t) r)) := by
  obtain ⟨-, -, -, -, -, -, e0, e1, -⟩ := idx_facts t
  have hr := r.isLt
  have ht := t_lt t
  unfold iblk
  rw [View.read_apply]
  show V m c main_v1 (((cfg0.win 3).blk t).view.emb (ix2 r (0 : Fin 1))) = _
  have he : ((cfg0.win 3).blk t).view.emb (ix2 r (0 : Fin 1)) = ix2 (grow t.val (t_lt t) r) (0 : Fin 1) := by
    funext a; apply Fin.ext
    match a with
    | ⟨0, _⟩ => show win0_3.index t (0 : Fin 2) * 128 + 1 * r.val = 128 * t.val + r.val; rw [e0]; omega
    | ⟨1, _⟩ => show win0_3.index t (1 : Fin 2) * 1 + 1 * 0 = 0; rw [e1]
  rw [he, V_v1, Cert.LibSoftmaxRow.shapeCast_a_a1_apply]

/-! ## What each point writes back, and the arrays after the run -/

/-- The loss array. -/
abbrev G4 (c : Dev nD) : S8192.Idx → EReal := fun idx => rowLoss (xOf m c) (labOf m c) (idx 0)
/-- The flag array. -/
abbrev G5 (c : Dev nD) : S8192.Idx → EReal := fun idx => ((((rowValid (labOf m c) (idx 0)).setWidth 32).toInt : ℝ) : EReal)

theorem flushed4_eq (c : Dev nD) (t : Fin cfg0.N) :
    (dats m 0 c).flushed 4 t = ((cfg0.win 4).blk t).view.read (Elt Ideal) (G4 m c) := by
  obtain ⟨-, -, -, -, -, -, -, -, e4, -, eg⟩ := idx_facts t
  show (cfg0.win 4).cut (grid0.coords t) ((dats m 0 c).after 4 t) = _
  rw [after0_4]
  unfold outsAt0
  dsimp only
  rw [out4_eq]
  funext y
  have hy : y = ix1 (y 0) := eq_ix1 y
  have hyl : (y 0).val < 128 := (y 0).isLt
  have ht := t_lt t
  show k0_pay2 (F := Ideal) _ _ _ _ y = rowLoss (xOf m c) (labOf m c) ((((cfg0.win 4).blk t).view.emb y) 0)
  have hg : (((cfg0.win 4).blk t).view.emb y) 0 = grow t.val (t_lt t) ⟨(y 0).val, hyl⟩ := by
    apply Fin.ext
    show win0_4.index t (0 : Fin 1) * 128 + 1 * (y 0).val = 128 * t.val + (y 0).val
    rw [e4]; omega
  have key := loss_eq (xOf m c) (labOf m c) (grid0.coords t) t.val (t_lt t) eg _ _ _ _ _
    (blk0_apply m c t) (rows_apply m c t) (blk1_apply m c t) (blk2_apply m c t) (blk3_apply m c t) ⟨(y 0).val, hyl⟩
  have hy' : ix1 (⟨(y 0).val, hyl⟩ : Fin 128) = y := hy.symm
  rw [hy'] at key
  exact key.trans (congrArg (rowLoss (xOf m c) (labOf m c)) hg.symm)

theorem flushed5_eq (c : Dev nD) (t : Fin cfg0.N) :
    (dats m 0 c).flushed 5 t = ((cfg0.win 5).blk t).view.read (Elt Ideal) (G5 m c) := by
  obtain ⟨-, -, -, -, -, -, -, -, -, e5, eg⟩ := idx_facts t
  show (cfg0.win 5).cut (grid0.coords t) ((dats m 0 c).after 5 t) = _
  rw [after0_5]
  unfold outsAt0
  dsimp only
  rw [out5_eq]
  funext y
  have hy : y = ix1 (y 0) := eq_ix1 y
  have hyl : (y 0).val < 128 := (y 0).isLt
  have ht := t_lt t
  show k0_pay3 (F := Ideal) _ _ y
    = ((((rowValid (labOf m c) ((((cfg0.win 5).blk t).view.emb y) 0)).setWidth 32).toInt : ℝ) : EReal)
  have hg : (((cfg0.win 5).blk t).view.emb y) 0 = grow t.val (t_lt t) ⟨(y 0).val, hyl⟩ := by
    apply Fin.ext
    show win0_5.index t (0 : Fin 1) * 128 + 1 * (y 0).val = 128 * t.val + (y 0).val
    rw [e5]; omega
  have key := flag_eq (labOf m c) (grid0.coords t) t.val (t_lt t) eg _ _
    (blk2_apply m c t) (blk3_apply m c t) ⟨(y 0).val, hyl⟩
  have hy' : ix1 (⟨(y 0).val, hyl⟩ : Fin 128) = y := hy.symm
  rw [hy'] at key
  exact key.trans (congrArg (fun g : Fin 8192 => ((((rowValid (labOf m c) g).setWidth 32).toInt : ℝ) : EReal)) hg.symm)

theorem mem_blk4 (t : Fin cfg0.N) (idx : S8192.Idx) :
    idx ∈ ((cfg0.win 4).blk t).view.set ↔ ∀ a : Fin 1, win0_4.index t a * S128.size a ≤ (idx a).val ∧ (idx a).val < win0_4.index t a * S128.size a + S128.size a := by
  show idx ∈ ((View.whole main_v6_0).slice (win0_4.rect t)).set ↔ _
  rw [View.set_slice_whole, Rect.mem_set_unit]
  exact Iff.rfl

theorem mem_blk5 (t : Fin cfg0.N) (idx : S8192.Idx) :
    idx ∈ ((cfg0.win 5).blk t).view.set ↔ ∀ a : Fin 1, win0_5.index t a * S128.size a ≤ (idx a).val ∧ (idx a).val < win0_5.index t a * S128.size a + S128.size a := by
  show idx ∈ ((View.whole main_v6_1).slice (win0_5.rect t)).set ↔ _
  rw [View.set_slice_whole, Rect.mem_set_unit]
  exact Iff.rfl

/-- Row g lies in the block of point g / 128. -/
theorem cover4 (idx : S8192.Idx) : ∃ t : Fin cfg0.N, (cfg0.win 4).flush t = true ∧ idx ∈ ((cfg0.win 4).blk t).view.set := by
  have hi : (idx 0).val < 8192 := (idx 0).isLt
  have hN : cfg0.N = 64 := N_0
  let t : Fin cfg0.N := ⟨(idx 0).val / 128, by rw [hN]; omega⟩
  obtain ⟨-, -, -, -, -, -, -, -, e4, -, -⟩ := idx_facts t
  refine ⟨t, flush0_4 t, ?_⟩
  rw [mem_blk4]
  intro a
  match a with
  | ⟨0, _⟩ =>
    show win0_4.index t (0 : Fin 1) * 128 ≤ (idx 0).val ∧ (idx 0).val < win0_4.index t (0 : Fin 1) * 128 + 128
    rw [e4]; show (idx 0).val / 128 * 128 ≤ (idx 0).val ∧ (idx 0).val < (idx 0).val / 128 * 128 + 128; omega

theorem cover5 (idx : S8192.Idx) : ∃ t : Fin cfg0.N, (cfg0.win 5).flush t = true ∧ idx ∈ ((cfg0.win 5).blk t).view.set := by
  have hi : (idx 0).val < 8192 := (idx 0).isLt
  have hN : cfg0.N = 64 := N_0
  let t : Fin cfg0.N := ⟨(idx 0).val / 128, by rw [hN]; omega⟩
  obtain ⟨-, -, -, -, -, -, -, -, -, e5, -⟩ := idx_facts t
  refine ⟨t, flush0_5 t, ?_⟩
  rw [mem_blk5]
  intro a
  match a with
  | ⟨0, _⟩ =>
    show win0_5.index t (0 : Fin 1) * 128 ≤ (idx 0).val ∧ (idx 0).val < win0_5.index t (0 : Fin 1) * 128 + 128
    rw [e5]; show (idx 0).val / 128 * 128 ≤ (idx 0).val ∧ (idx 0).val < (idx 0).val / 128 * 128 + 128; omega

/-- The loss array after the run. -/
theorem final4 (c : Dev nD) : (dats m 0 c).arrAt 4 cfg0.N = G4 m c :=
  (dats m 0 c).arrAt_eq_of_cover 4 (G4 m c) (fun t _ => flushed4_eq m c t) cover4

/-- The flag array after the run. -/
theorem final5 (c : Dev nD) : (dats m 0 c).arrAt 5 cfg0.N = G5 m c :=
  (dats m 0 c).arrAt_eq_of_cover 5 (G5 m c) (fun t _ => flushed5_eq m c t) cover5

end Cert.KernelIdeal.Blocks

end
-- ==== Proof.CountLaw.lean ====
/-
  Counting set bits two ways.

  For one-bit words `v i`, i < N with N < 2³¹, let k be the number of set bits. Widened to 32 bits and summed as
  32-bit words the count is the word of k, and read as a signed integer it is k itself, since k ≤ N < 2³¹ does not
  reach the sign bit; widened, read as signed integers and summed as extended reals from zero the count is the
  extended real k. So "the count is positive" and "the count, at least one" are the same on both sides.
-/
import proofs.«132673_j7172595384725_2_alg».proof.Proof.RowLaw

noncomputable section

namespace TripletRows

open Idealize.ShloMosaic

variable {N : ℕ}

/-- The number of set bits. -/
def bitCount (v : Fin N → BitVec 1) : ℕ := ∑ i : Fin N, (v i).toNat

theorem bitCount_le (v : Fin N → BitVec 1) : bitCount v ≤ N := by
  unfold bitCount
  have h : ∑ i : Fin N, (v i).toNat ≤ (Finset.univ : Finset (Fin N)).card • 1 :=
    Finset.sum_le_card_nsmul _ _ 1 fun i _ => by have := (v i).isLt; omega
  simpa using h

/-- The 32-bit sum of the widened bits is the word of their number. -/
theorem fold_addi_eq (v : Fin N → BitVec 1) (S : Finset (Fin N)) :
    S.fold IntOp.addi 0#32 (fun i => (v i).setWidth 32) = BitVec.ofNat 32 (∑ i ∈ S, (v i).toNat) := by
  induction S using Finset.induction_on with
  | empty => rw [Finset.fold_empty, Finset.sum_empty]
  | insert a S ha ih =>
    rw [Finset.fold_insert ha, ih, Finset.sum_insert ha, BitVec.ofNat_add, BitVec.ofNat_toNat]
    rfl

theorem countWord_eq (v : Fin N → BitVec 1) :
    (Finset.univ : Finset (Fin N)).fold IntOp.addi 0#32 (fun i => (v i).setWidth 32) = BitVec.ofNat 32 (bitCount v) :=
  fold_addi_eq v Finset.univ

/-- The extended-real sum, from zero, of the widened bits read as signed integers is their number. -/
theorem countReal_eq (v : Fin N → BitVec 1) :
    (0 : EReal) + ∑ i : Fin N, ((((v i).setWidth 32).toInt : ℝ) : EReal) = ((bitCount v : ℝ) : EReal) := by
  rw [zero_add, ← Cert.HingePairs.coe_sum]
  congr 1
  unfold bitCount
  rw [Nat.cast_sum]
  exact Finset.sum_congr rfl fun i _ => Cert.HingePairs.toInt_setWidth_bv1 (v i)

theorem toInt_ofNat_of_lt {k : ℕ} (hk : k < 2 ^ 31) : (BitVec.ofNat 32 k).toInt = (k : ℤ) := by
  rw [BitVec.toInt_eq_toNat_cond, BitVec.toNat_ofNat]
  have h : k % 2 ^ 32 = k := Nat.mod_eq_of_lt (by omega)
  rw [h, if_pos (by omega)]

/-- "The count is positive", on both sides. -/
theorem count_pos_eq {k : ℕ} (hk : k < 2 ^ 31) :
    Ideal.cmp .ogt ((k : ℝ) : EReal) 0 = IntOp.cmpi .sgt (BitVec.ofNat 32 k) 0#32 := by
  show BitVec.ofBool (decide ((0 : EReal) < ((k : ℝ) : EReal))) = BitVec.ofBool ((0#32).slt (BitVec.ofNat 32 k))
  congr 1
  rw [Bool.eq_iff_iff, decide_eq_true_iff, BitVec.slt_iff_toInt_lt, toInt_ofNat_of_lt hk]
  have h0 : (0#32 : BitVec 32).toInt = 0 := by decide
  rw [h0, ← EReal.coe_zero, EReal.coe_lt_coe_iff]
  constructor
  · intro h; exact_mod_cast h
  · intro h; exact_mod_cast h

/-- "The count, at least one", on both sides. -/
theorem count_max_eq {k : ℕ} (hk : k < 2 ^ 31) :
    max ((k : ℝ) : EReal) 1 = (((IntOp.maxsi (BitVec.ofNat 32 k) 1#32).toInt : ℝ) : EReal) := by
  have h1 : (1#32 : BitVec 32).toInt = 1 := by decide
  unfold IntOp.maxsi
  by_cases h : 1 < k
  · have hs : (1#32).slt (BitVec.ofNat 32 k) = true := by
      rw [BitVec.slt_iff_toInt_lt, toInt_ofNat_of_lt hk, h1]; exact_mod_cast h
    rw [if_pos hs, toInt_ofNat_of_lt hk]
    have : (1 : EReal) ≤ ((k : ℝ) : EReal) := by
      rw [← EReal.coe_one, EReal.coe_le_coe_iff]; exact_mod_cast h.le
    rw [max_eq_left this]; norm_cast
  · have hs : ¬ (1#32).slt (BitVec.ofNat 32 k) = true := by
      rw [BitVec.slt_iff_toInt_lt, toInt_ofNat_of_lt hk, h1]; exact_mod_cast h
    rw [if_neg hs, h1]
    have : ((k : ℝ) : EReal) ≤ 1 := by
      rw [← EReal.coe_one, EReal.coe_le_coe_iff]; exact_mod_cast (not_lt.mp h)
    rw [max_eq_right this]; norm_cast

end TripletRows

end
-- ==== Proof.KernelMean.lean ====
/-
  The mean row loss, from the two arrays of per-row numbers.

  Given each row's loss and each row's validity flag as the number 0 or 1, the count of valid rows is the sum of the
  flags from zero and the total is the sum of the losses from zero; the result is the total over the count (at least
  one) where the count is positive, and zero elsewhere. The count is a natural number k ≤ 8192 < 2³¹, so the
  extended real k and the 32-bit word of k agree on "positive" and on "at least one", and this is the specification's
  result, which counts with 32-bit words.
-/
import proofs.«132673_j7172595384725_2_alg».proof.Proof.CountLaw
import proofs.«132673_j7172595384725_2_alg».proof.Proof.Spec

noncomputable section

namespace TripletMean

open Idealize.ShloMosaic Idealize.ShloMosaic.ValueIdx TripletRows TripletSpec

/-- Each row's loss, as an array over `[8192]`. -/
def G4 (x : SX.Idx → EReal) (lab : SL.Idx → BitVec 32) : SL.Idx → EReal := fun idx => rowLoss x lab (idx 0)

/-- Each row's validity flag as a number: the bit widened to 32 bits and read as a signed integer. -/
def G5 (lab : SL.Idx → BitVec 32) : SL.Idx → EReal :=
  fun idx => ((((rowValid lab (idx 0)).setWidth 32).toInt : ℝ) : EReal)

/-- From two `[8192]` arrays of extended reals: the count is the zero word plus the sum of the flags, the total the zero
    word plus the sum of the losses, and the result is total / max count 1 where the count exceeds the zero word and
    the zero word elsewhere. -/
def resultK (g4 g5 : SL.Idx → EReal) : EReal :=
  Scalar.select (Ideal.cmp .ogt (Ideal.ofBits .f32 0x00000000#32 + ∑ idx : SL.Idx, g5 idx) (Ideal.ofBits .f32 0x00000000#32))
    (Ideal.div (Ideal.ofBits .f32 0x00000000#32 + ∑ idx : SL.Idx, g4 idx)
      (max (Ideal.ofBits .f32 0x00000000#32 + ∑ idx : SL.Idx, g5 idx) (Ideal.ofBits .f32 0x3F800000#32)))
    (Ideal.ofBits .f32 0x00000000#32)

/-- A rank-1 index set of extent 8192 is its coordinate's range. -/
def idxEquiv1 : SL.Idx ≃ Fin 8192 where
  toFun j := j 0
  invFun i := ix1 i
  left_inv j := (eq_ix1 j).symm
  right_inv _ := rfl

/-- A sum over the indices of `[8192]` is the sum over the coordinate. -/
theorem sum_idx1 (g : SL.Idx → EReal) : ∑ j, g j = ∑ i : Fin 8192, g (ix1 i) := by
  rw [← Equiv.sum_comp idxEquiv1.symm g]
  rfl

/-- The number of valid rows does not reach the sign bit of a 32-bit word. -/
theorem count_lt (lab : SL.Idx → BitVec 32) : bitCount (rowValid lab) < 2 ^ 31 :=
  lt_of_le_of_lt (bitCount_le (rowValid lab)) (by norm_num)

/-- The sum of the flags from the zero word is the number of valid rows. -/
theorem count_eq (lab : SL.Idx → BitVec 32) :
    Ideal.ofBits .f32 0x00000000#32 + ∑ idx : SL.Idx, G5 lab idx = ((bitCount (rowValid lab) : ℝ) : EReal) := by
  rw [sum_idx1, w0]
  exact countReal_eq (rowValid lab)

/-- The sum of the losses from the zero word is the specification's total. -/
theorem total_eq (x : SX.Idx → EReal) (lab : SL.Idx → BitVec 32) :
    Ideal.ofBits .f32 0x00000000#32 + ∑ idx : SL.Idx, G4 x lab idx = total x lab := by
  rw [sum_idx1]
  rfl

/-- The mean over the valid rows computed from the two arrays is the specification's result. -/
theorem resultK_eq (x : SX.Idx → EReal) (lab : SL.Idx → BitVec 32) : resultK (G4 x lab) (G5 lab) = result x lab := by
  have hk := count_lt lab
  have hword : countW lab = BitVec.ofNat 32 (bitCount (rowValid lab)) := countWord_eq (rowValid lab)
  unfold resultK result
  rw [count_eq, total_eq, hword, w1, ← count_max_eq hk, w0, count_pos_eq hk]

end TripletMean

end
-- ==== Proof.KernelTail.lean ====
/-
  The host operations after the region, read at the extended reals.

  After the region the program holds two `[8192]` arrays, the rows' validity flags as numbers and the rows' losses. The
  operations that follow sum each of them from the zero word into a scalar, compare the count with the zero word,
  clamp it below by the one word, divide the total by the clamped count, and select the quotient where the count is
  positive and the zero word elsewhere. A sum of a whole array into a scalar is, on the extended reals, the initial value
  plus the sum over every index; the other operations act on the one scalar element.
-/
import proofs.«132673_j7172595384725_2_alg».proof.Proof.Gen.KernelIdeal.Frame
import proofs.«132673_j7172595384725_2_alg».proof.Proof.KernelMean
import Idealize.ShloMosaic.Lib.Pipeline.FrameSuffix
import Idealize.ShloMosaic.Lib.StableHlo.Run
import Idealize.ShloMosaic.Lib.ValueIdx
import Idealize.ShloMosaic.PureOps.Ideal.Laws

noncomputable section

namespace Cert.KernelIdeal.Tail

open Cert.KernelIdeal Cert.KernelIdeal.Gen Idealize.ShloMosaic Idealize.ShloMosaic.TcCoe Idealize.SL.Sem

variable (m : (ℓ : Loc nD τ sig) → Buf (Elt Ideal) ℓ)

/-- The sum of an `[8192]` array into a scalar, from the zero word: the zero word plus the sum over every index. -/
theorem reduceAdd_scalar (g : S8192.Idx → EReal) (h' : S8192.ReducesTo [0] S_) (hu : 0 < S_.numel) (idx : S_.Idx) :
    Host.reduceAdd (F := Ideal) (φ := .f32) g (constant (F := Ideal) S_ .f32 0x00000000#32) h' hu idx
      = Ideal.ofBits .f32 0x00000000#32 + ∑ j : S8192.Idx, g j := by
  simp only [Host.reduceAdd, Ideal.hostReduceAdd_def]
  exact Ideal.hostReduceAdd_total h' (fun b => b.elim0) g _ idx

/-- The scalar the operations after the region leave, from the two arrays the region leaves: the mean of the losses
    over the number of flagged rows, or the zero word when no row is flagged. -/
theorem tail_eq (c : Dev nD) (g4 g5 : S8192.Idx → EReal)
    (h4 : (dats m 0 c).arrAt 4 cfg0.N = g4) (h5 : (dats m 0 c).arrAt 5 cfg0.N = g5) :
    Pipeline.afterTail₀ cfgs (dats m) 0 (V0 m) [hostOps1, hostOps1_1] c main_v12 = fun _ => TripletMean.resultK g4 g5 := by
  have e5 : Pipeline.withArrays (cfgs 0).spec c (V0 m c) (fun w => (dats m 0 c).arrAt w (cfgs 0).N)
      (Proc.devRef .tc main_v6_1) = g5 :=
    (Pipeline.withArrays_arr spec0 launch0.win.arr_inj c (V0 m c) (fun w => (dats m 0 c).arrAt w (cfgs 0).N) 5).trans h5
  have e4 : Pipeline.withArrays (cfgs 0).spec c (V0 m c) (fun w => (dats m 0 c).arrAt w (cfgs 0).N)
      (Proc.devRef .tc main_v6_0) = g4 :=
    (Pipeline.withArrays_arr spec0 launch0.win.arr_inj c (V0 m c) (fun w => (dats m 0 c).arrAt w (cfgs 0).N) 4).trans h4
  unfold Pipeline.afterTail₀
  simp only [hostOps1, hostOps1_1, List.flatten_cons, List.flatten_nil, List.append_nil, List.cons_append,
    List.nil_append]
  after_results
  rw [e5, e4]
  funext idx
  unfold TripletMean.resultK
  rw [← reduceAdd_scalar g5 reducesTo_S8192_S_d0 h_S_ idx, ← reduceAdd_scalar g4 reducesTo_S8192_S_d0 h_S_ idx]
  rfl

end Cert.KernelIdeal.Tail

end
-- ==== Proof.KernelRun.lean ====
/-
  The kernel program's run at the ideal values: its result is the specification's mean row loss.

  The pipeline leaves the loss array and the flag array as one function each of the arguments (the 64 blocks cover
  them); the host operations after it sum both, compare the count with zero, clamp it at one and divide, which is the
  specification's result counted the other way; the arguments are written by no operation.
-/
import proofs.«132673_j7172595384725_2_alg».proof.Proof.KernelBlocks
import proofs.«132673_j7172595384725_2_alg».proof.Proof.KernelTail

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The last buffer after the host tail is the specification's result of the launch contents. -/
theorem tail_result (c : Dev nD) :
    Pipeline.afterTail₀ cfgs (dats m) 0 (V0 m) [hostOps1, hostOps1_1] c main_v12
      = fun _ => TripletSpec.result (m ((c : Thread nD τ).loc main_arg0)) (m ((c : Thread nD τ).loc main_arg1)) :=
  (Cert.KernelIdeal.Tail.tail_eq m c _ _ (Cert.KernelIdeal.Blocks.final4 m c) (Cert.KernelIdeal.Blocks.final5 m c)).trans
    (funext fun _ => TripletMean.resultK_eq (m ((c : Thread nD τ).loc main_arg0)) (m ((c : Thread nD τ).loc main_arg1)))

/-- Every weakly fair execution of the kernel program terminates with the result at the specification's value and the
    arguments unchanged. -/
theorem run : θ_run defs (onTc (τ := τ) (main (F := Ideal))) ⟨m, fun _ => 0, ρ⟩ fun r => ∀ c : Dev nD,
      r.2.mem ((c.tc : Thread nD τ).loc main_v12)
          = (fun _ => TripletSpec.result (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v12 (Pipeline.mem_restRefs_of main_v12 (by decide) (by decide))).trans (tail_result m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Value

end
-- ==== Proof.lean ====
/-
  The certificate of an online triplet loss kernel against its jnp reference, on the extended reals.

  Both programs take embeddings x : [8192, 128] and labels : [8192] and return the mean, over the rows that have both a
  positive (same label, another row) and a negative (another label), of the hinge
  max(hardest positive distance − hardest negative distance + margin, 0), or zero when no row is valid. The kernel works
  on 64 blocks of 128 rows against all 8192 columns, takes the masked maximum and minimum of the SQUARED distances and
  the square root of the two results; the reference takes the square root of every distance first. The square root is
  monotone and fixes 0, ⊥ and ⊤, so it commutes with the masked maximum and minimum of nonnegative numbers
  (Proof/RowLaw.lean); the count of valid rows is the same natural number whether summed as 0/1 numbers or as 32-bit
  words (Proof/CountLaw.lean, Proof/KernelMean.lean). No entry needs to be finite: sums and products are only
  re-associated, never distributed.

  The three frames: the two kernel programs' by the generated frame certificates, the reference's by its run
  (Proof/RefStages.lean) with the result dropped. The ideal pass rewrote nothing, so the preservation claim is trivial.
  The algebraic claim: the kernel's run ends at the specification's result (Proof/KernelRun.lean: the blocks of
  Proof/KernelBlocks.lean, the row of Proof/KernelPoint.lean, the host tail of Proof/KernelTail.lean) and so does the
  reference's (Proof/RefStages.lean, Proof/RefValue.lean), of arguments that agree.
-/
import proofs.«132673_j7172595384725_2_alg».proof.Defs
import proofs.«132673_j7172595384725_2_alg».proof.Proof.Gen.Kernel
import proofs.«132673_j7172595384725_2_alg».proof.Proof.Gen.Kernel.Frame
import proofs.«132673_j7172595384725_2_alg».proof.Proof.Gen.KernelIdeal
import proofs.«132673_j7172595384725_2_alg».proof.Proof.Gen.KernelIdeal.Frame
import proofs.«132673_j7172595384725_2_alg».proof.Proof.Gen.ReferenceIdeal
import proofs.«132673_j7172595384725_2_alg».proof.Proof.Gen.Pre_finite_inputs
import proofs.«132673_j7172595384725_2_alg».proof.Proof.RefStages
import proofs.«132673_j7172595384725_2_alg».proof.Proof.RefValue
import proofs.«132673_j7172595384725_2_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefStages.run (F := Ideal) m ρ)

/-- The ideal pass rewrote no operation. -/
theorem preserves : Cert.preserves_Kernel_KernelIdeal := trivial

/-- Both runs end at the specification's result of their arguments, and the arguments agree. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.RefStages.run (F := Ideal) m' ρ')
  rw [Cert.ReferenceIdeal.RefValue.ref_value, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
